-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v41)) (v4 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_v29) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1024 : Shape := ⟨2, ![100000, 1024]⟩
abbrev S128x128 : Shape := ⟨2, ![128, 128]⟩
abbrev S128 : Shape := ⟨1, ![128]⟩
abbrev S1024 : Shape := ⟨1, ![1024]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S128x128 .f32) (main_arg5 : FVec F S128 .f32) (main_arg6 : FVec F S1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S100000x128 .f32) (main_arg1 : FVec F S100000x1024 .f32) (main_arg2 : FVec F S128x128 .f32) (main_arg3 : FVec F S128 .f32) (main_arg4 : FVec F S128x128 .f32) (main_arg5 : FVec F S128 .f32) (main_arg6 : FVec F S1024 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S100000x1024 : Shape := ⟨2, ![100000, 1024]⟩
abbrev S128x128 : Shape := ⟨2, ![128, 128]⟩
abbrev S128 : Shape := ⟨1, ![128]⟩
abbrev S1024 : Shape := ⟨1, ![1024]⟩
abbrev S1024x128 : Shape := ⟨2, ![1024, 128]⟩
abbrev S100000x1 : Shape := ⟨2, ![100000, 1]⟩
abbrev S2000x128 : Shape := ⟨2, ![2000, 128]⟩
abbrev S2000x1024 : Shape := ⟨2, ![2000, 1024]⟩
abbrev S2000x1 : Shape := ⟨2, ![2000, 1]⟩
abbrev S2000 : Shape := ⟨1, ![2000]⟩
abbrev S1x128 : Shape := ⟨2, ![1, 128]⟩
abbrev S_ : Shape := ⟨0, ![]⟩
abbrev S1 : Shape := ⟨1, ![1]⟩
abbrev S1024x1 : Shape := ⟨2, ![1024, 1]⟩
abbrev S100000 : Shape := ⟨1, ![100000]⟩

abbrev nBuf : Space → Nat
  | .hbm => 62
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S100000x1024, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1024, .f32⟩
  | .hbm, ⟨7, _⟩ => ⟨S1024x128, .f32⟩
  | .hbm, ⟨8, _⟩ => ⟨S100000x1, .f32⟩
  | .hbm, ⟨9, _⟩ => ⟨S100000x1, .f32⟩
  | .hbm, ⟨10, _⟩ => ⟨S1024x128, .f32⟩
  | .hbm, ⟨11, _⟩ => ⟨S1x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024x128, .f32⟩
  | .hbm, ⟨29, _⟩ => ⟨S1024x128, .f32⟩
  | .hbm, ⟨30, _⟩ => ⟨S1x128, .f32⟩
  | .hbm, ⟨31, _⟩ => ⟨S100000x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000, .f32⟩
  | .hbm, ⟨55, _⟩ => ⟨S100000, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S100000, .f32⟩
  | .hbm, ⟨61, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S2000x1024, .f32⟩
  | .local _ .vmem, ⟨3, _⟩ => ⟨S2000x1024, .f32⟩
  | .local _ .vmem, ⟨4, _⟩ => ⟨S1024x128, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x1, .f32⟩
  | .local _ .vmem, ⟨9, _⟩ => ⟨S1024x128, .f32⟩
  | .local _ .vmem, ⟨10, _⟩ => ⟨S2000x1024, .f32⟩
  | .local _ .vmem, ⟨11, _⟩ => ⟨S2000x1024, .f32⟩
  | .local _ .vmem, ⟨12, _⟩ => ⟨S1024x128, .f32⟩
  | .local _ .vmem, ⟨13, _⟩ => ⟨S128x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2000x1024_S2000x1024_0_0 : ∀ a, (![0, 0] : Fin 2 → Nat) a + S2000x1024.size a ≤ S2000x1024.size a
  h_S2000x1024 : 0 < S2000x1024.numel
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  reduces_S2000x1024_S2000 : S2000x1024.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  reduces_S2000x128_S2000 : S2000x128.Reduces [1] S2000
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024_S_d0 : S1024.ReducesTo [0] S_
  h_S_ : 0 < S_.numel
  bcast_S_S1 : S_.BroadcastsInDim S1 (![] : Fin 0 → Fin S1.rank)
  bcast_S1_S1024_0 : S1.BroadcastsInDim S1024 (![0] : Fin 1 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S128_S1x128 : S128.ShapeCasts S1x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1024 : S_.BroadcastsInDim S1024 (![] : Fin 0 → Fin S1024.rank)
  shapeCasts_S100000x1_S100000 : S100000x1.ShapeCasts S100000
  reducesTo_S100000_S_d0 : S100000.ReducesTo [0] S_
  bcast_S_S100000 : S_.BroadcastsInDim S100000 (![] : Fin 0 → Fin S100000.rank)
  dot_S2000x1024_S2000x128_S1024x128_0_0_1_1_n_n_wf : DotDims.WF S2000x1024 S2000x128 S1024x128 [0] [0] [1] [1] [] []
  dot_S1024x128_S128x128_S1024x128_1_0_0_1_n_n_wf : DotDims.WF S1024x128 S128x128 S1024x128 [1] [0] [0] [1] [] []
  dot_S2000x1024_S1024x128_S2000x128_1_0_0_1_n_n_wf : DotDims.WF S2000x1024 S1024x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S100000x1024.size a
  hwx0_1 : ∀ i : grid0.Coords, EltTy.bits .f32 = 32 ∨ (Rect.block (s := S100000x1024) S2000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S100000x1024.size a
  hwx1_0 : ∀ i : grid1.Coords, EltTy.bits .f32 = 32 ∨ (Rect.block (s := S100000x1024) S2000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S2000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1024 : Shape := ⟨2, ![100000, 1024]⟩
abbrev S128x128 : Shape := ⟨2, ![128, 128]⟩
abbrev S128 : Shape := ⟨1, ![128]⟩
abbrev S1024 : Shape := ⟨1, ![1024]⟩
abbrev S1024x100000 : Shape := ⟨2, ![1024, 100000]⟩
abbrev S1024x128 : Shape := ⟨2, ![1024, 128]⟩
abbrev S1x128 : Shape := ⟨2, ![1, 128]⟩
abbrev S_ : Shape := ⟨0, ![]⟩
abbrev S1 : Shape := ⟨1, ![1]⟩
abbrev S1024x1 : Shape := ⟨2, ![1024, 1]⟩
abbrev S100000 : Shape := ⟨1, ![100000]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1024, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1024, .f32⟩
  | .hbm, ⟨7, _⟩ => ⟨S1024x100000, .f32⟩
  | .hbm, ⟨8, _⟩ => ⟨S1024x128, .f32⟩
  | .hbm, ⟨9, _⟩ => ⟨S1024x128, .f32⟩
  | .hbm, ⟨10, _⟩ => ⟨S1x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S1024, .f32⟩
  | .hbm, ⟨25, _⟩ => ⟨S1024, .f32⟩
  | .hbm, ⟨26, _⟩ => ⟨S1024x1, .f32⟩
  | .hbm, ⟨27, _⟩ => ⟨S1024x128, .f32⟩
  | .hbm, ⟨28, _⟩ => ⟨S1024x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S100000, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S100000, .f32⟩
  | .hbm, ⟨67, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_v0 : Ref sig .tc := ⟨.hbm, 57, rfl⟩
abbrev main_call0_cst : Ref sig .tc := ⟨.hbm, 58, rfl⟩
abbrev main_call0_v1 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  transposes_S100000x1024_S1024x100000_1_0 : S100000x1024.Transposes [1, 0] S1024x100000
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024_S_d0 : S1024.ReducesTo [0] S_
  h_S_ : 0 < S_.numel
  bcast_S_S1 : S_.BroadcastsInDim S1 (![] : Fin 0 → Fin S1.rank)
  bcast_S1_S1024_0 : S1.BroadcastsInDim S1024 (![0] : Fin 1 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1x128_S100000x128_0_1 : S1x128.BroadcastsInDim S100000x128 (![0, 1] : Fin 2 → Fin S100000x128.rank)
  bcast_S_S1024 : S_.BroadcastsInDim S1024 (![] : Fin 0 → Fin S1024.rank)
  reducesTo_S100000x1024_S100000_d1 : S100000x1024.ReducesTo [1] S100000
  reducesTo_S100000_S_d0 : S100000.ReducesTo [0] S_
  bcast_S_S100000 : S_.BroadcastsInDim S100000 (![] : Fin 0 → Fin S100000.rank)
  reducesTo_S100000x128_S100000_d1 : S100000x128.ReducesTo [1] S100000
  dot_S1024x100000_S100000x128_S1024x128_1_0_0_1_n_n_wf : DotDims.WF S1024x100000 S100000x128 S1024x128 [1] [0] [0] [1] [] []
  dot_S1024x128_S128x128_S1024x128_1_0_0_1_n_n_wf : DotDims.WF S1024x128 S128x128 S1024x128 [1] [0] [0] [1] [] []
  dot_S100000x1024_S1024x128_S100000x128_1_0_0_1_n_n_wf : DotDims.WF S100000x1024 S1024x128 S100000x128 [1] [0] [0] [1] [] []
  dot_S100000x128_S128x128_S100000x128_1_0_0_1_n_n_wf : DotDims.WF S100000x128 S128x128 S100000x128 [1] [0] [0] [1] [] []

variable [Facts₀]

def dot_S1024x100000_S100000x128_S1024x128_1_0_0_1_n_n : DotDims S1024x100000 S100000x128 S1024x128 where
  lhsContracting := [1]
  rhsContracting := [0]
  lhsNonContracting := [0]
  rhsNonContracting := [1]
  lhsBatch := []
  rhsBatch := []
  wf := dot_S1024x100000_S100000x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S100000x1024_S1024x128_S100000x128_1_0_0_1_n_n : DotDims S100000x1024 S1024x128 S100000x128 where
  lhsContracting := [1]
  rhsContracting := [0]
  lhsNonContracting := [0]
  rhsNonContracting := [1]
  lhsBatch := []
  rhsBatch := []
  wf := dot_S100000x1024_S1024x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KReg0Base.lean ====
/- The first kernel region (the reduction pass over the rows): what its runs share.
   The grid has 50 points; the body zeroes its accumulator at the first point only, so there are two
   cases of its one conditional. The accumulator is a scratch buffer carried from point to point. -/
import proofs.«162158_j50689204027485_1_alg».proof.Proof.Gen.Kernel.Launch
import proofs.«162158_j50689204027485_1_alg».proof.Proof.Gen.Kernel.Skeleton
import proofs.«162158_j50689204027485_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's one condition, from the grid coordinate: the point is the first. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- No window is idle at any point: every output is stored whole at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- One staging buffer of each output window, through which its contents are stated. -/
abbrev VO0_2 : View sig .tc .vmem S1024x128 .f32 := (Memref.whole cc0_stg2_0 : Memref sig .tc .vmem S1024x128 .f32).view
abbrev VO0_3 : View sig .tc .vmem S2000x1 .f32 := (Memref.whole cc0_stg3_0 : Memref sig .tc .vmem S2000x1 .f32).view
abbrev VO0_4 : View sig .tc .vmem S2000x1 .f32 := (Memref.whole cc0_stg4_0 : Memref sig .tc .vmem S2000x1 .f32).view
/-- Each window's current staging memref at point `t`, as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x1 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S1024x128 .f32 := Memref.whole cc0_scratch0
abbrev VS0_0 : View sig .tc .vmem S1024x128 .f32 := scM0_0.view

/-- The scoped buffers of the core that are neither this region's staging buffers nor its accumulator
    (the second region's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's class invariant with the accumulator as a memref owned at some contents. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA otherScoped; rw [scopedRest0_eq]; simp only [scM0_0, owns_whole]; try rfl

end Cert.Kernel.Hand

end
-- ==== Proof.KReg0RunA.lean ====
/- The reduction kernel's body run at the FIRST grid point (its conditional taken: the accumulator is
   zeroed first): on whole staging memrefs, the two input blocks at their contents, the three outputs and
   the accumulator at anything, the body runs and leaves each output and the accumulator with the pieces
   its stores wrote. The pieces are found by running the body symbolically. -/
import proofs.«162158_j50689204027485_1_alg».proof.Proof.KReg0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i)
    (x0 : Vec F S2000x128 .f32) (x1 : Vec F S2000x1024 .f32) :
    Σ' (L2 : List (View.Piece (Elt F) S1024x128 .f32)) (L3 : List (View.Piece (Elt F) S2000x1 .f32)) (L4 : List (View.Piece (Elt F) S2000x1 .f32)), { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__reduce_kernel i arg1 harg1 arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS0

end Cert.Kernel.Hand

end
-- ==== Proof.KReg0RunB.lean ====
/- The reduction kernel's body run at every grid point AFTER the first (its conditional not taken): the
   accumulator holds what the point before left; the body adds this point's product to it. -/
import proofs.«162158_j50689204027485_1_alg».proof.Proof.KReg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i)
    (x0 : Vec F S2000x128 .f32) (x1 : Vec F S2000x1024 .f32) (xs0 : Vec F S1024x128 .f32) :
    Σ' (L2 : List (View.Piece (Elt F) S1024x128 .f32)) (L3 : List (View.Piece (Elt F) S2000x1 .f32)) (L4 : List (View.Piece (Elt F) S2000x1 .f32)), { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__reduce_kernel i arg1 harg1 arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS0

end Cert.Kernel.Hand

end
-- ==== Proof.KReg0.lean ====
/- The first kernel region (the reduction pass): what each output's staging buffer and the accumulator
   hold after every grid point, the proof data of its pipeline, and the body obligation.
   After point 0 the accumulator holds zero plus the first row block's product; after point t it holds
   what point t-1 left plus block t's product; the first output is the accumulator's copy, the other two
   are the row sums of the point's own blocks. -/
import proofs.«162158_j50689204027485_1_alg».proof.Proof.KReg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case A leaves in each output's staging buffer and in the accumulator tile it (one whole-buffer store each, the last one on top), so they cover it. -/
theorem cover0_A_2 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) (y : S1024x128.Idx) : ∃ pc ∈ (kernelRun0_A c i arg1 harg1 arg2 harg2 arg3 harg3 arg4 harg4 arg5 harg5 arg6 harg6 hc0 x0 x1).1, y ∈ pc.1.set :=
  View.cover_of_tiledL (kernelRun0_A c i arg1 harg1 arg2 harg2 arg3 harg3 arg4 harg4 arg5 harg5 arg6 harg6 hc0 x0 x1).1 S1024x128.size (by sl_kernel_rfl) y
theorem cover0_A_3 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) (y : S2000x1.Idx) : ∃ pc ∈ (kernelRun0_A c i arg1 harg1 arg2 harg2 arg3 harg3 arg4 harg4 arg5 harg5 arg6 harg6 hc0 x0 x1).2.1, y ∈ pc.1.set :=
  View.cover_of_tiledL (kernelRun0_A c i arg1 harg1 arg2 harg2 arg3 harg3 arg4 harg4 arg5 harg5 arg6 harg6 hc0 x0 x1).2.1 S2000x1.size (by sl_kernel_rfl) y
theorem cover0_A_4 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) (y : S2000x1.Idx) : ∃ pc ∈ (kernelRun0_A c i arg1 harg1 arg2 harg2 arg3 harg3 arg4 harg4 arg5 harg5 arg6 harg6 hc0 x0 x1).2.2.1, y ∈ pc.1.set :=
  View.cover_of_tiledL (kernelRun0_A c i arg1 harg1 arg2 harg2 arg3 harg3 arg4 harg4 arg5 harg5 arg6 harg6 hc0 x0 x1).2.2.1 S2000x1.size (by sl_kernel_rfl) y
theorem scover0_A_0 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) (y : S1024x128.Idx) : ∃ pc ∈ (kernelRun0_A c i arg1 harg1 arg2 harg2 arg3 harg3 arg4 harg4 arg5 harg5 arg6 harg6 hc0 x0 x1).2.2.2.1, y ∈ pc.1.set :=
  View.cover_of_tiledL (kernelRun0_A c i arg1 harg1 arg2 harg2 arg3 harg3 arg4 harg4 arg5 harg5 arg6 harg6 hc0 x0 x1).2.2.2.1 S1024x128.size (by sl_kernel_rfl) y
/-- What case A leaves in each output's staging buffer and in the accumulator: its pieces read back. -/
def out0_A_2 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) : Vec F S1024x128 .f32 := VO0_2.read (Elt F) (VO0_2.writes (Elt F) VO0_2.junk (kernelRun0_A c i arg1 harg1 arg2 harg2 arg3 harg3 arg4 harg4 arg5 harg5 arg6 harg6 hc0 x0 x1).1)
def out0_A_3 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) : Vec F S2000x1 .f32 := VO0_3.read (Elt F) (VO0_3.writes (Elt F) VO0_3.junk (kernelRun0_A c i arg1 harg1 arg2 harg2 arg3 harg3 arg4 harg4 arg5 harg5 arg6 harg6 hc0 x0 x1).2.1)
def out0_A_4 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) : Vec F S2000x1 .f32 := VO0_4.read (Elt F) (VO0_4.writes (Elt F) VO0_4.junk (kernelRun0_A c i arg1 harg1 arg2 harg2 arg3 harg3 arg4 harg4 arg5 harg5 arg6 harg6 hc0 x0 x1).2.2.1)
def sout0_A_0 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) : Vec F S1024x128 .f32 := VS0_0.read (Elt F) (VS0_0.writes (Elt F) VS0_0.junk (kernelRun0_A c i arg1 harg1 arg2 harg2 arg3 harg3 arg4 harg4 arg5 harg5 arg6 harg6 hc0 x0 x1).2.2.2.1)

/-- The pieces case B leaves in each output's staging buffer and in the accumulator tile it (one whole-buffer store each, the last one on top), so they cover it. -/
theorem cover0_B_2 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) (y : S1024x128.Idx) : ∃ pc ∈ (kernelRun0_B c i arg1 harg1 arg2 harg2 arg3 harg3 arg4 harg4 arg5 harg5 arg6 harg6 hc0 x0 x1 xs0).1, y ∈ pc.1.set :=
  View.cover_of_tiledL (kernelRun0_B c i arg1 harg1 arg2 harg2 arg3 harg3 arg4 harg4 arg5 harg5 arg6 harg6 hc0 x0 x1 xs0).1 S1024x128.size (by sl_kernel_rfl) y
theorem cover0_B_3 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) (y : S2000x1.Idx) : ∃ pc ∈ (kernelRun0_B c i arg1 harg1 arg2 harg2 arg3 harg3 arg4 harg4 arg5 harg5 arg6 harg6 hc0 x0 x1 xs0).2.1, y ∈ pc.1.set :=
  View.cover_of_tiledL (kernelRun0_B c i arg1 harg1 arg2 harg2 arg3 harg3 arg4 harg4 arg5 harg5 arg6 harg6 hc0 x0 x1 xs0).2.1 S2000x1.size (by sl_kernel_rfl) y
theorem cover0_B_4 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) (y : S2000x1.Idx) : ∃ pc ∈ (kernelRun0_B c i arg1 harg1 arg2 harg2 arg3 harg3 arg4 harg4 arg5 harg5 arg6 harg6 hc0 x0 x1 xs0).2.2.1, y ∈ pc.1.set :=
  View.cover_of_tiledL (kernelRun0_B c i arg1 harg1 arg2 harg2 arg3 harg3 arg4 harg4 arg5 harg5 arg6 harg6 hc0 x0 x1 xs0).2.2.1 S2000x1.size (by sl_kernel_rfl) y
theorem scover0_B_0 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) (y : S1024x128.Idx) : ∃ pc ∈ (kernelRun0_B c i arg1 harg1 arg2 harg2 arg3 harg3 arg4 harg4 arg5 harg5 arg6 harg6 hc0 x0 x1 xs0).2.2.2.1, y ∈ pc.1.set :=
  View.cover_of_tiledL (kernelRun0_B c i arg1 harg1 arg2 harg2 arg3 harg3 arg4 harg4 arg5 harg5 arg6 harg6 hc0 x0 x1 xs0).2.2.2.1 S1024x128.size (by sl_kernel_rfl) y
/-- What case B leaves in each output's staging buffer and in the accumulator: its pieces read back. -/
def out0_B_2 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) : Vec F S1024x128 .f32 := VO0_2.read (Elt F) (VO0_2.writes (Elt F) VO0_2.junk (kernelRun0_B c i arg1 harg1 arg2 harg2 arg3 harg3 arg4 harg4 arg5 harg5 arg6 harg6 hc0 x0 x1 xs0).1)
def out0_B_3 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) : Vec F S2000x1 .f32 := VO0_3.read (Elt F) (VO0_3.writes (Elt F) VO0_3.junk (kernelRun0_B c i arg1 harg1 arg2 harg2 arg3 harg3 arg4 harg4 arg5 harg5 arg6 harg6 hc0 x0 x1 xs0).2.1)
def out0_B_4 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) : Vec F S2000x1 .f32 := VO0_4.read (Elt F) (VO0_4.writes (Elt F) VO0_4.junk (kernelRun0_B c i arg1 harg1 arg2 harg2 arg3 harg3 arg4 harg4 arg5 harg5 arg6 harg6 hc0 x0 x1 xs0).2.2.1)
def sout0_B_0 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) : Vec F S1024x128 .f32 := VS0_0.read (Elt F) (VS0_0.writes (Elt F) VS0_0.junk (kernelRun0_B c i arg1 harg1 arg2 harg2 arg3 harg3 arg4 harg4 arg5 harg5 arg6 harg6 hc0 x0 x1 xs0).2.2.2.1)

section Region0
variable (V : (c : Dev nD) → (b : Ref sig .tc) → Buf (Elt F) ((c : Thread nD τ).loc b))

/-- The first point's contents: case A at the point's memrefs and input blocks. -/
def caseA (c : Dev nD) (t : Fin cfg0.N) (h : cond0_0 (grid0.coords t)) : Vec F S1024x128 .f32 × Vec F S2000x1 .f32 × Vec F S2000x1 .f32 × Vec F S1024x128 .f32 :=
  (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t))
/-- A later point's contents: case B at the point's memrefs and input blocks, over the accumulator `xs0`. -/
def caseB (c : Dev nD) (t : Fin cfg0.N) (h : ¬cond0_0 (grid0.coords t)) (xs0 : Vec F S1024x128 .f32) : Vec F S1024x128 .f32 × Vec F S2000x1 .f32 × Vec F S2000x1 .f32 × Vec F S1024x128 .f32 :=
  (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t) xs0, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t) xs0, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t) xs0, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t) xs0)

/-- THE ACCUMULATION: what the three outputs' staging buffers and the accumulator hold after the body at position `n`. -/
def outsAt0 (c : Dev nD) : (n : ℕ) → n < cfg0.N → Vec F S1024x128 .f32 × Vec F S2000x1 .f32 × Vec F S2000x1 .f32 × Vec F S1024x128 .f32
  | 0, hn => caseA V c ⟨0, hn⟩ ((hcond0_0 ⟨0, hn⟩).mpr rfl)
  | n + 1, hn => caseB V c ⟨n + 1, hn⟩ (fun h => Nat.succ_ne_zero n ((hcond0_0 ⟨n + 1, hn⟩).mp h)) (outsAt0 c n (Nat.lt_of_succ_lt hn)).2.2.2

theorem outsAt0_A (c : Dev nD) (t : Fin cfg0.N) (h0 : t.val = 0) :
    outsAt0 V c t.val t.isLt = caseA V c t ((hcond0_0 t).mpr h0) := by
  obtain ⟨n, hn⟩ := t
  cases n with
  | zero => rfl
  | succ n => exact absurd h0 (Nat.succ_ne_zero n)
theorem outsAt0_B (c : Dev nD) (t : Fin cfg0.N) (h0 : ¬t.val = 0) :
    outsAt0 V c t.val t.isLt = caseB V c t (fun h => h0 ((hcond0_0 t).mp h)) (outsAt0 V c (t.val - 1) (Nat.lt_of_le_of_lt (Nat.sub_le _ _) t.isLt)).2.2.2 := by
  obtain ⟨n, hn⟩ := t
  cases n with
  | zero => exact absurd rfl h0
  | succ n => rfl

/-- The region invariant before position `n`: before the first point the class's (the accumulator at anything);
    afterwards the accumulator at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2) ∗ otherScoped (F := F) c) ∗ (∃ r, prngReg c r)) := by
  cases n with
  | zero => exact absurd rfl hz
  | succ n => rfl

/-- The proof data of the first pipeline on core `c`: the arrays as the region finds them; after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the point is the first or a later one; the invariant
    hands the body the accumulator (at anything at the first point, at what the point before left afterwards) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val = 0
  · rw [outsAt0_A V c t h0]
    unfold caseA out0_A_2 out0_A_3 out0_A_4 sout0_A_0; (try dsimp only)
    rw [PhiS_castSucc V c t, PhiS_zero V c _ _ h0, PhiA0_eq]
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (iblk0 V c 0 t) (iblk0 V c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, ⟨%e2, H2⟩, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _)
  · rw [outsAt0_B V c t h0]
    unfold caseB out0_B_2 out0_B_3 out0_B_4 sout0_B_0; (try dsimp only)
    rw [PhiS_castSucc V c t, PhiS_pos V c _ _ h0]
    iintro ⟨⟨⟨HS0, HR⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk0 V c 0 t) (iblk0 V c 1 t) _).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, ⟨%e2, H2⟩, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem Phi_in0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem Phi_out0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end Region0

end Cert.Kernel.Hand

end
-- ==== Proof.KReg1.lean ====
import proofs.«162158_j50689204027485_1_alg».proof.Proof.Gen.Kernel.Launch
import proofs.«162158_j50689204027485_1_alg».proof.Proof.Gen.Kernel.Skeleton
import proofs.«162158_j50689204027485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (the second pallas_call, `cc1__node_out_kernel`, pipeline 1): its class-A half

At a PARAMETER `V` — the TensorCore's buffer contents when the region is entered —: each window's block at a
grid point (`iblk1`), what the body leaves in the output window's staging buffer as a closed function of the
five input blocks (`out1_5`: the one store's payload laid over the whole buffer), the body's triple
(`sound_kernel1`), the pipeline's proof data (`dat1`) and the body obligation (`body_obligation1`).

The body loads its five inputs whole, computes `(x0 · x1) · x2 + row x3 + x4` (two matrix products, a broadcast row,
a residual), reads its output buffer (the value is discarded) and overwrites it whole with the result. Inputs 1, 2, 3
have a constant block index, so the pipeline fetches them at the first point only; their staging buffers still hold
the block at every later point because the body leaves every input buffer as it found it. -/

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the pipeline does
    not fetch, the block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1 (constant block index: fetched at the first point only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (constant block index). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (constant block index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4 (fetched at every point). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_0 : Rect S2000x1024 := Rect.unit (s := S2000x1024) ![0, 0] S2000x1024.size inb_S2000x1024_S2000x1024_0_0
abbrev r1_1 : Rect S1024x128 := Rect.unit (s := S1024x128) ![0, 0] S1024x128.size inb_S1024x128_S1024x128_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0
abbrev r1_out : Rect S2000x128 := Rect.unit (s := S2000x128) ![0, 0] S2000x128.size inb_S2000x128_S2000x128_0_0

/-! ## What the body leaves in the output window's buffer -/

/-- Window 5's staging buffer after the body, from the input windows' blocks: its one store as a piece, the
    payload the skeleton's (`k1_pay1`) at what the five loads read. -/
def out1_5 (x0 : Vec F S2000x1024 .f32) (x1 : Vec F S1024x128 .f32) (x2 : Vec F S128x128 .f32) (x3 : Vec F S1x128 .f32) (x4 : Vec F S2000x128 .f32) : Vec F S2000x128 .f32 :=
  View.canon [⟨r1_out, k1_pay1 (View.ld x0 r1_0) (View.ld x1 r1_1) (View.ld x2 r1_2) (View.ld x3 r1_3) (View.ld x4 r1_out)⟩]

/-- The one store takes the whole buffer, so it covers it. -/
theorem cover1_5 (p0 : Vec F S2000x128 .f32) (y : S2000x128.Idx) :
    ∃ pc ∈ ([⟨r1_out, p0⟩] : List (View.Piece (Elt F) S2000x128 .f32)), y ∈ pc.1.set :=
  View.cover_of_tiled [⟨r1_out, p0⟩] S2000x128.size (by rfl) y

/-! ## The body's triple -/

set_option maxHeartbeats 1000000 in
/-- The kernel body on whole staging memrefs, the inputs' at read contents `xW` and the output's at anything, runs to
    the continuation holding the inputs' as they were and the output's at `out1_5` of the inputs': the printed function
    is its skeleton, whose loads and one store are run in order; the load of the output buffer reads whatever it
    holds and the value is not used. -/
theorem sound_kernel1 (c : Dev nD) (E : Set ℕ) (i : grid1.Coords) (arg1 : Memref sig .tc .vmem S2000x1024 .f32) (harg1 : arg1.IsWhole) (arg2 : Memref sig .tc .vmem S1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole)
    (x0 : Vec F S2000x1024 .f32) (x1 : Vec F S1024x128 .f32) (x2 : Vec F S128x128 .f32) (x3 : Vec F S1x128 .f32) (x4 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__node_out_kernel i arg1 harg1 arg2 harg2 arg3 harg3 arg4 harg4 arg5 harg5 arg6 harg6) K := by
  simp only [cc1__node_out_kernel_eq_skeleton]; unfold cc1__node_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/- The whole program as a run of four segments — the first kernel region, the host operations between the
   regions, the second kernel region, the host operations after it — with the contents of every unscoped buffer
   NAMED at each boundary: the launch memory, then each region's arrays at what its write-backs leave, then each
   host stretch applied. Every weakly fair execution terminates in a state whose unscoped buffers hold the last
   boundary's contents; the argument arrays are never written. -/
import proofs.«162158_j50689204027485_1_alg».proof.Proof.KReg0
import proofs.«162158_j50689204027485_1_alg».proof.Proof.KReg1
import proofs.«162158_j50689204027485_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the first region's entry). -/
abbrev W0 : Dev nD → Valuation τ sig (Elt F) := fun c b => m (c, b)
abbrev VR0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (VR0 m) c).arrAt w cfg0.N
theorem W1_arr (c : Dev nD) (w : Fin cfg0.W) :
    W1 m c (Proc.devRef .tc (Pipeline.arrRef spec0 w)) = (dat0 (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VR1 : (c : Dev nD) → (b : Ref sig .tc) → Buf (Elt F) ((c : Thread nD τ).loc b) := fun c b => W1 m c b
theorem hF0 (c : Dev nD) (w : Fin cfg0.W) : (dat0 (VR0 m) c).arrAt w cfg0.N = VR1 m c (Pipeline.arrRef spec0 w) :=
  (W1_arr m c w).symm
theorem hrest0 (c : Dev nD) : ∀ b, b ∉ Finset.univ.image (Pipeline.arrRef spec0) → VR1 m c b = VR0 m c b :=
  fun b hb => W1_of_ne m c b fun w e => hb (Finset.mem_image.mpr ⟨w, Finset.mem_univ _, e⟩)
/-- After the host operations between the regions (the second region's entry). -/
abbrev W2 : Dev nD → Valuation τ sig (Elt F) := fun c => StableHlo.after hostOps1 (W1 m c)
abbrev VR2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (VR2 m) c).arrAt w cfg1.N
theorem W3_arr (c : Dev nD) (w : Fin cfg1.W) :
    W3 m c (Proc.devRef .tc (Pipeline.arrRef spec1 w)) = (dat1 (VR2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VR3 : (c : Dev nD) → (b : Ref sig .tc) → Buf (Elt F) ((c : Thread nD τ).loc b) := fun c b => W3 m c b
theorem hF1 (c : Dev nD) (w : Fin cfg1.W) : (dat1 (VR2 m) c).arrAt w cfg1.N = VR3 m c (Pipeline.arrRef spec1 w) :=
  (W3_arr m c w).symm
theorem hrest1 (c : Dev nD) : ∀ b, b ∉ Finset.univ.image (Pipeline.arrRef spec1) → VR3 m c b = VR2 m c b :=
  fun b hb => W3_of_ne m c b fun w e => hb (Finset.mem_image.mpr ⟨w, Finset.mem_univ _, e⟩)
/-- After the host operations that follow the second region: the contents the program ends with. -/
abbrev W4 : Dev nD → Valuation τ sig (Elt F) := fun c => StableHlo.after hostOps2 (W3 m c)

/-- A host stretch leaves every buffer it does not write. -/
theorem W2_of (c : Dev nD) (r : Ref sig .tc) (h : r ∉ hostOps1_W) : W2 m c (Proc.devRef .tc r) = W1 m c (Proc.devRef .tc r) :=
  StableHlo.after_of_writes_sub hostOps1 _ hostOps1_writes h
theorem W4_of (c : Dev nD) (r : Ref sig .tc) (h : r ∉ hostOps2_W) : W4 m c (Proc.devRef .tc r) = W3 m c (Proc.devRef .tc r) :=
  StableHlo.after_of_writes_sub hostOps2 _ hostOps2_writes h

/-! The argument arrays end as launched: no host operation writes one, a region only reads it through an input window. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := (W3_arr m c 4).trans (((dat1 (VR2 m) c).arrAt_in 4 rfl _).trans (A_eq1 (VR2 m) c 4))
    _ = W1 m c (Proc.devRef .tc main_arg0) := W2_of m c main_arg0 (by decide)
    _ = W0 m c (Proc.devRef .tc main_arg0) := (W1_arr m c 0).trans (((dat0 (VR0 m) c).arrAt_in 0 rfl _).trans (A_eq0 (VR0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := (W3_arr m c 0).trans (((dat1 (VR2 m) c).arrAt_in 0 rfl _).trans (A_eq1 (VR2 m) c 0))
    _ = W1 m c (Proc.devRef .tc main_arg1) := W2_of m c main_arg1 (by decide)
    _ = W0 m c (Proc.devRef .tc main_arg1) := (W1_arr m c 1).trans (((dat0 (VR0 m) c).arrAt_in 1 rfl _).trans (A_eq0 (VR0 m) c 1))
    _ = m ((c : Thread nD τ).loc main_arg1) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of m c main_arg4 (by decide)
    _ = W2 m c (Proc.devRef .tc main_arg4) := (W3_arr m c 2).trans (((dat1 (VR2 m) c).arrAt_in 2 rfl _).trans (A_eq1 (VR2 m) c 2))
    _ = W1 m c (Proc.devRef .tc main_arg4) := W2_of m c main_arg4 (by decide)
    _ = W0 m c (Proc.devRef .tc main_arg4) := W1_of_ne m c main_arg4 (by decide)
    _ = m ((c : Thread nD τ).loc main_arg4) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of m c main_arg2 (by decide)
    _ = W2 m c (Proc.devRef .tc main_arg2) := W3_of_ne m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of m c main_arg3 (by decide)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of m c main_arg5 (by decide)
    _ = W2 m c (Proc.devRef .tc main_arg5) := W3_of_ne m c main_arg5 (by decide)
    _ = W1 m c (Proc.devRef .tc main_arg5) := W2_of m c main_arg5 (by decide)
    _ = W0 m c (Proc.devRef .tc main_arg5) := W1_of_ne m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of m c main_arg6 (by decide)
    _ = W2 m c (Proc.devRef .tc main_arg6) := W3_of_ne m c main_arg6 (by decide)
    _ = W1 m c (Proc.devRef .tc main_arg6) := W2_of m c main_arg6 (by decide)
    _ = W0 m c (Proc.devRef .tc main_arg6) := W1_of_ne m c main_arg6 (by decide)
    _ = m ((c : Thread nD τ).loc main_arg6) := rfl

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR2 m) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The first kernel region over the thread state: entered from every unscoped buffer at `W0`, left at `W1`.
    Its arrays are split out of the unscoped buffers and put back at the exit contents; the generator register goes into
    the class invariant and comes back; nothing is owed; the kernel has no semaphore of its own. -/
def regH0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ LH lvH 0 fun _ _ => rfl
  pre c := iprop(StableHlo.held (c : Thread nD τ) (Pipeline.ucRefs τ sig) (W0 m c) ∗ RH c)
  post c := iprop(StableHlo.held (c : Thread nD τ) (Pipeline.ucRefs τ sig) (W1 m c) ∗ RH c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (Phi_in0 (VR0 m) c)
    unfold Pipeline.ΦA
    iintro ⟨Hp, -, Hr⟩
    isplitl [Hr]; · iexact Hr
    iexact Hp
  hout c := by
    rw [Pipeline.ownSems0_none]
    refine (show (pdatsH m 0 c).Φ (Fin.last _) ⊢ Pipeline.ΦA spec0 c from Phi_out0 (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (VR0 m c) (VR1 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region over the thread state: entered from every unscoped buffer at `W2`, left at `W3`.
    Its arrays are split out of the unscoped buffers and put back at the exit contents; the generator register goes into
    the class invariant and comes back; nothing is owed; the kernel has no semaphore of its own. -/
def regH1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VR2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (VR2 m c) (VR3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segsH : List (Pipeline.Seg (pcfgs (F := F)) adm (pdatsH m) () defs₀ 𝒱H LH lvH) :=
  [ .region (regH0 m),
    .host (hsegH hostOps1 hostOps1_sub hostOps1_fresh (W1 m)),
    .region (regH1 m),
    .host (hsegH hostOps2 hostOps2_sub hostOps2_fresh (W3 m)) ]
theorem main_run (c : Dev nD) : main (F := F) c = Pipeline.Seg.run (segsH m) := (main_chain c).trans (by chain_rfl)

set_option backward.isDefEq.respectTransparency.types false in
/-- THE RUN: from any memory with zero counters every weakly fair execution of the program on the TensorCores terminates,
    nothing faulting, and in every final state each unscoped buffer holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (StableHlo.after hostOps2 (W3 m c)) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.Kernel.Hand

end
-- ==== Proof.Reg0Base.lean ====
/- The first kernel region (the reduction pass over the rows): what its runs share.
   The grid has 50 points; the body zeroes its accumulator at the first point only, so there are two
   cases of its one conditional. The accumulator is a scratch buffer carried from point to point. -/
import proofs.«162158_j50689204027485_1_alg».proof.Proof.Gen.KernelIdeal.Launch
import proofs.«162158_j50689204027485_1_alg».proof.Proof.Gen.KernelIdeal.Skeleton
import proofs.«162158_j50689204027485_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's one condition, from the grid coordinate: the point is the first. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- No window is idle at any point: every output is stored whole at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- One staging buffer of each output window, through which its contents are stated. -/
abbrev VO0_2 : View sig .tc .vmem S1024x128 .f32 := (Memref.whole cc0_stg2_0 : Memref sig .tc .vmem S1024x128 .f32).view
abbrev VO0_3 : View sig .tc .vmem S2000x1 .f32 := (Memref.whole cc0_stg3_0 : Memref sig .tc .vmem S2000x1 .f32).view
abbrev VO0_4 : View sig .tc .vmem S2000x1 .f32 := (Memref.whole cc0_stg4_0 : Memref sig .tc .vmem S2000x1 .f32).view
/-- Each window's current staging memref at point `t`, as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x1 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S1024x128 .f32 := Memref.whole cc0_scratch0
abbrev VS0_0 : View sig .tc .vmem S1024x128 .f32 := scM0_0.view

/-- The scoped buffers of the core that are neither this region's staging buffers nor its accumulator
    (the second region's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's class invariant with the accumulator as a memref owned at some contents. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA otherScoped; rw [scopedRest0_eq]; simp only [scM0_0, owns_whole]; try rfl

end Cert.KernelIdeal.Hand

end
-- ==== Proof.Reg0RunA.lean ====
/- The reduction kernel's body run at the FIRST grid point (its conditional taken: the accumulator is
   zeroed first): on whole staging memrefs, the two input blocks at their contents, the three outputs and
   the accumulator at anything, the body runs and leaves each output and the accumulator with the pieces
   its stores wrote. The pieces are found by running the body symbolically. -/
import proofs.«162158_j50689204027485_1_alg».proof.Proof.Reg0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i)
    (x0 : Vec F S2000x128 .f32) (x1 : Vec F S2000x1024 .f32) :
    Σ' (L2 : List (View.Piece (Elt F) S1024x128 .f32)) (L3 : List (View.Piece (Elt F) S2000x1 .f32)) (L4 : List (View.Piece (Elt F) S2000x1 .f32)), { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__reduce_kernel i arg1 harg1 arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS0

end Cert.KernelIdeal.Hand

end
-- ==== Proof.Reg0RunB.lean ====
/- The reduction kernel's body run at every grid point AFTER the first (its conditional not taken): the
   accumulator holds what the point before left; the body adds this point's product to it. -/
import proofs.«162158_j50689204027485_1_alg».proof.Proof.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i)
    (x0 : Vec F S2000x128 .f32) (x1 : Vec F S2000x1024 .f32) (xs0 : Vec F S1024x128 .f32) :
    Σ' (L2 : List (View.Piece (Elt F) S1024x128 .f32)) (L3 : List (View.Piece (Elt F) S2000x1 .f32)) (L4 : List (View.Piece (Elt F) S2000x1 .f32)), { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__reduce_kernel i arg1 harg1 arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS0

end Cert.KernelIdeal.Hand

end
-- ==== Proof.Reg0.lean ====
/- The first kernel region (the reduction pass): what each output's staging buffer and the accumulator
   hold after every grid point, the proof data of its pipeline, and the body obligation.
   After point 0 the accumulator holds zero plus the first row block's product; after point t it holds
   what point t-1 left plus block t's product; the first output is the accumulator's copy, the other two
   are the row sums of the point's own blocks. -/
import proofs.«162158_j50689204027485_1_alg».proof.Proof.Reg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case A leaves in each output's staging buffer and in the accumulator tile it (one whole-buffer store each, the last one on top), so they cover it. -/
theorem cover0_A_2 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) (y : S1024x128.Idx) : ∃ pc ∈ (kernelRun0_A c i arg1 harg1 arg2 harg2 arg3 harg3 arg4 harg4 arg5 harg5 arg6 harg6 hc0 x0 x1).1, y ∈ pc.1.set :=
  View.cover_of_tiledL (kernelRun0_A c i arg1 harg1 arg2 harg2 arg3 harg3 arg4 harg4 arg5 harg5 arg6 harg6 hc0 x0 x1).1 S1024x128.size (by sl_kernel_rfl) y
theorem cover0_A_3 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) (y : S2000x1.Idx) : ∃ pc ∈ (kernelRun0_A c i arg1 harg1 arg2 harg2 arg3 harg3 arg4 harg4 arg5 harg5 arg6 harg6 hc0 x0 x1).2.1, y ∈ pc.1.set :=
  View.cover_of_tiledL (kernelRun0_A c i arg1 harg1 arg2 harg2 arg3 harg3 arg4 harg4 arg5 harg5 arg6 harg6 hc0 x0 x1).2.1 S2000x1.size (by sl_kernel_rfl) y
theorem cover0_A_4 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) (y : S2000x1.Idx) : ∃ pc ∈ (kernelRun0_A c i arg1 harg1 arg2 harg2 arg3 harg3 arg4 harg4 arg5 harg5 arg6 harg6 hc0 x0 x1).2.2.1, y ∈ pc.1.set :=
  View.cover_of_tiledL (kernelRun0_A c i arg1 harg1 arg2 harg2 arg3 harg3 arg4 harg4 arg5 harg5 arg6 harg6 hc0 x0 x1).2.2.1 S2000x1.size (by sl_kernel_rfl) y
theorem scover0_A_0 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) (y : S1024x128.Idx) : ∃ pc ∈ (kernelRun0_A c i arg1 harg1 arg2 harg2 arg3 harg3 arg4 harg4 arg5 harg5 arg6 harg6 hc0 x0 x1).2.2.2.1, y ∈ pc.1.set :=
  View.cover_of_tiledL (kernelRun0_A c i arg1 harg1 arg2 harg2 arg3 harg3 arg4 harg4 arg5 harg5 arg6 harg6 hc0 x0 x1).2.2.2.1 S1024x128.size (by sl_kernel_rfl) y
/-- What case A leaves in each output's staging buffer and in the accumulator: its pieces read back. -/
def out0_A_2 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) : Vec F S1024x128 .f32 := VO0_2.read (Elt F) (VO0_2.writes (Elt F) VO0_2.junk (kernelRun0_A c i arg1 harg1 arg2 harg2 arg3 harg3 arg4 harg4 arg5 harg5 arg6 harg6 hc0 x0 x1).1)
def out0_A_3 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) : Vec F S2000x1 .f32 := VO0_3.read (Elt F) (VO0_3.writes (Elt F) VO0_3.junk (kernelRun0_A c i arg1 harg1 arg2 harg2 arg3 harg3 arg4 harg4 arg5 harg5 arg6 harg6 hc0 x0 x1).2.1)
def out0_A_4 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) : Vec F S2000x1 .f32 := VO0_4.read (Elt F) (VO0_4.writes (Elt F) VO0_4.junk (kernelRun0_A c i arg1 harg1 arg2 harg2 arg3 harg3 arg4 harg4 arg5 harg5 arg6 harg6 hc0 x0 x1).2.2.1)
def sout0_A_0 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) : Vec F S1024x128 .f32 := VS0_0.read (Elt F) (VS0_0.writes (Elt F) VS0_0.junk (kernelRun0_A c i arg1 harg1 arg2 harg2 arg3 harg3 arg4 harg4 arg5 harg5 arg6 harg6 hc0 x0 x1).2.2.2.1)

/-- The pieces case B leaves in each output's staging buffer and in the accumulator tile it (one whole-buffer store each, the last one on top), so they cover it. -/
theorem cover0_B_2 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) (y : S1024x128.Idx) : ∃ pc ∈ (kernelRun0_B c i arg1 harg1 arg2 harg2 arg3 harg3 arg4 harg4 arg5 harg5 arg6 harg6 hc0 x0 x1 xs0).1, y ∈ pc.1.set :=
  View.cover_of_tiledL (kernelRun0_B c i arg1 harg1 arg2 harg2 arg3 harg3 arg4 harg4 arg5 harg5 arg6 harg6 hc0 x0 x1 xs0).1 S1024x128.size (by sl_kernel_rfl) y
theorem cover0_B_3 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) (y : S2000x1.Idx) : ∃ pc ∈ (kernelRun0_B c i arg1 harg1 arg2 harg2 arg3 harg3 arg4 harg4 arg5 harg5 arg6 harg6 hc0 x0 x1 xs0).2.1, y ∈ pc.1.set :=
  View.cover_of_tiledL (kernelRun0_B c i arg1 harg1 arg2 harg2 arg3 harg3 arg4 harg4 arg5 harg5 arg6 harg6 hc0 x0 x1 xs0).2.1 S2000x1.size (by sl_kernel_rfl) y
theorem cover0_B_4 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) (y : S2000x1.Idx) : ∃ pc ∈ (kernelRun0_B c i arg1 harg1 arg2 harg2 arg3 harg3 arg4 harg4 arg5 harg5 arg6 harg6 hc0 x0 x1 xs0).2.2.1, y ∈ pc.1.set :=
  View.cover_of_tiledL (kernelRun0_B c i arg1 harg1 arg2 harg2 arg3 harg3 arg4 harg4 arg5 harg5 arg6 harg6 hc0 x0 x1 xs0).2.2.1 S2000x1.size (by sl_kernel_rfl) y
theorem scover0_B_0 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) (y : S1024x128.Idx) : ∃ pc ∈ (kernelRun0_B c i arg1 harg1 arg2 harg2 arg3 harg3 arg4 harg4 arg5 harg5 arg6 harg6 hc0 x0 x1 xs0).2.2.2.1, y ∈ pc.1.set :=
  View.cover_of_tiledL (kernelRun0_B c i arg1 harg1 arg2 harg2 arg3 harg3 arg4 harg4 arg5 harg5 arg6 harg6 hc0 x0 x1 xs0).2.2.2.1 S1024x128.size (by sl_kernel_rfl) y
/-- What case B leaves in each output's staging buffer and in the accumulator: its pieces read back. -/
def out0_B_2 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) : Vec F S1024x128 .f32 := VO0_2.read (Elt F) (VO0_2.writes (Elt F) VO0_2.junk (kernelRun0_B c i arg1 harg1 arg2 harg2 arg3 harg3 arg4 harg4 arg5 harg5 arg6 harg6 hc0 x0 x1 xs0).1)
def out0_B_3 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) : Vec F S2000x1 .f32 := VO0_3.read (Elt F) (VO0_3.writes (Elt F) VO0_3.junk (kernelRun0_B c i arg1 harg1 arg2 harg2 arg3 harg3 arg4 harg4 arg5 harg5 arg6 harg6 hc0 x0 x1 xs0).2.1)
def out0_B_4 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) : Vec F S2000x1 .f32 := VO0_4.read (Elt F) (VO0_4.writes (Elt F) VO0_4.junk (kernelRun0_B c i arg1 harg1 arg2 harg2 arg3 harg3 arg4 harg4 arg5 harg5 arg6 harg6 hc0 x0 x1 xs0).2.2.1)
def sout0_B_0 (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) : Vec F S1024x128 .f32 := VS0_0.read (Elt F) (VS0_0.writes (Elt F) VS0_0.junk (kernelRun0_B c i arg1 harg1 arg2 harg2 arg3 harg3 arg4 harg4 arg5 harg5 arg6 harg6 hc0 x0 x1 xs0).2.2.2.1)

section Region0
variable (V : (c : Dev nD) → (b : Ref sig .tc) → Buf (Elt F) ((c : Thread nD τ).loc b))

/-- The first point's contents: case A at the point's memrefs and input blocks. -/
def caseA (c : Dev nD) (t : Fin cfg0.N) (h : cond0_0 (grid0.coords t)) : Vec F S1024x128 .f32 × Vec F S2000x1 .f32 × Vec F S2000x1 .f32 × Vec F S1024x128 .f32 :=
  (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t))
/-- A later point's contents: case B at the point's memrefs and input blocks, over the accumulator `xs0`. -/
def caseB (c : Dev nD) (t : Fin cfg0.N) (h : ¬cond0_0 (grid0.coords t)) (xs0 : Vec F S1024x128 .f32) : Vec F S1024x128 .f32 × Vec F S2000x1 .f32 × Vec F S2000x1 .f32 × Vec F S1024x128 .f32 :=
  (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t) xs0, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t) xs0, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t) xs0, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk0 V c 0 t) (iblk0 V c 1 t) xs0)

/-- THE ACCUMULATION: what the three outputs' staging buffers and the accumulator hold after the body at position `n`. -/
def outsAt0 (c : Dev nD) : (n : ℕ) → n < cfg0.N → Vec F S1024x128 .f32 × Vec F S2000x1 .f32 × Vec F S2000x1 .f32 × Vec F S1024x128 .f32
  | 0, hn => caseA V c ⟨0, hn⟩ ((hcond0_0 ⟨0, hn⟩).mpr rfl)
  | n + 1, hn => caseB V c ⟨n + 1, hn⟩ (fun h => Nat.succ_ne_zero n ((hcond0_0 ⟨n + 1, hn⟩).mp h)) (outsAt0 c n (Nat.lt_of_succ_lt hn)).2.2.2

theorem outsAt0_A (c : Dev nD) (t : Fin cfg0.N) (h0 : t.val = 0) :
    outsAt0 V c t.val t.isLt = caseA V c t ((hcond0_0 t).mpr h0) := by
  obtain ⟨n, hn⟩ := t
  cases n with
  | zero => rfl
  | succ n => exact absurd h0 (Nat.succ_ne_zero n)
theorem outsAt0_B (c : Dev nD) (t : Fin cfg0.N) (h0 : ¬t.val = 0) :
    outsAt0 V c t.val t.isLt = caseB V c t (fun h => h0 ((hcond0_0 t).mp h)) (outsAt0 V c (t.val - 1) (Nat.lt_of_le_of_lt (Nat.sub_le _ _) t.isLt)).2.2.2 := by
  obtain ⟨n, hn⟩ := t
  cases n with
  | zero => exact absurd rfl h0
  | succ n => rfl

/-- The region invariant before position `n`: before the first point the class's (the accumulator at anything);
    afterwards the accumulator at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2) ∗ otherScoped (F := F) c) ∗ (∃ r, prngReg c r)) := by
  cases n with
  | zero => exact absurd rfl hz
  | succ n => rfl

/-- The proof data of the first pipeline on core `c`: the arrays as the region finds them; after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the point is the first or a later one; the invariant
    hands the body the accumulator (at anything at the first point, at what the point before left afterwards) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val = 0
  · rw [outsAt0_A V c t h0]
    unfold caseA out0_A_2 out0_A_3 out0_A_4 sout0_A_0; (try dsimp only)
    rw [PhiS_castSucc V c t, PhiS_zero V c _ _ h0, PhiA0_eq]
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (iblk0 V c 0 t) (iblk0 V c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, ⟨%e2, H2⟩, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _)
  · rw [outsAt0_B V c t h0]
    unfold caseB out0_B_2 out0_B_3 out0_B_4 sout0_B_0; (try dsimp only)
    rw [PhiS_castSucc V c t, PhiS_pos V c _ _ h0]
    iintro ⟨⟨⟨HS0, HR⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk0 V c 0 t) (iblk0 V c 1 t) _).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, ⟨%e2, H2⟩, ⟨%e3, H3⟩, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem Phi_in0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem Phi_out0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end Region0

end Cert.KernelIdeal.Hand

end
-- ==== Proof.Reg1.lean ====
import proofs.«162158_j50689204027485_1_alg».proof.Proof.Gen.KernelIdeal.Launch
import proofs.«162158_j50689204027485_1_alg».proof.Proof.Gen.KernelIdeal.Skeleton
import proofs.«162158_j50689204027485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (the second pallas_call, `cc1__node_out_kernel`, pipeline 1): its class-A half

At a PARAMETER `V` — the TensorCore's buffer contents when the region is entered —: each window's block at a
grid point (`iblk1`), what the body leaves in the output window's staging buffer as a closed function of the
five input blocks (`out1_5`: the one store's payload laid over the whole buffer), the body's triple
(`sound_kernel1`), the pipeline's proof data (`dat1`) and the body obligation (`body_obligation1`).

The body loads its five inputs whole, computes `(x0 · x1) · x2 + row x3 + x4` (two matrix products, a broadcast row,
a residual), reads its output buffer (the value is discarded) and overwrites it whole with the result. Inputs 1, 2, 3
have a constant block index, so the pipeline fetches them at the first point only; their staging buffers still hold
the block at every later point because the body leaves every input buffer as it found it. -/

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the pipeline does
    not fetch, the block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1 (constant block index: fetched at the first point only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (constant block index). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (constant block index). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The same of input window 4 (fetched at every point). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_0 : Rect S2000x1024 := Rect.unit (s := S2000x1024) ![0, 0] S2000x1024.size inb_S2000x1024_S2000x1024_0_0
abbrev r1_1 : Rect S1024x128 := Rect.unit (s := S1024x128) ![0, 0] S1024x128.size inb_S1024x128_S1024x128_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0
abbrev r1_out : Rect S2000x128 := Rect.unit (s := S2000x128) ![0, 0] S2000x128.size inb_S2000x128_S2000x128_0_0

/-! ## What the body leaves in the output window's buffer -/

/-- Window 5's staging buffer after the body, from the input windows' blocks: its one store as a piece, the
    payload the skeleton's (`k1_pay1`) at what the five loads read. -/
def out1_5 (x0 : Vec F S2000x1024 .f32) (x1 : Vec F S1024x128 .f32) (x2 : Vec F S128x128 .f32) (x3 : Vec F S1x128 .f32) (x4 : Vec F S2000x128 .f32) : Vec F S2000x128 .f32 :=
  View.canon [⟨r1_out, k1_pay1 (View.ld x0 r1_0) (View.ld x1 r1_1) (View.ld x2 r1_2) (View.ld x3 r1_3) (View.ld x4 r1_out)⟩]

/-- The one store takes the whole buffer, so it covers it. -/
theorem cover1_5 (p0 : Vec F S2000x128 .f32) (y : S2000x128.Idx) :
    ∃ pc ∈ ([⟨r1_out, p0⟩] : List (View.Piece (Elt F) S2000x128 .f32)), y ∈ pc.1.set :=
  View.cover_of_tiled [⟨r1_out, p0⟩] S2000x128.size (by rfl) y

/-! ## The body's triple -/

set_option maxHeartbeats 1000000 in
/-- The kernel body on whole staging memrefs, the inputs' at read contents `xW` and the output's at anything, runs to
    the continuation holding the inputs' as they were and the output's at `out1_5` of the inputs': the printed function
    is its skeleton, whose loads and one store are run in order; the load of the output buffer reads whatever it
    holds and the value is not used. -/
theorem sound_kernel1 (c : Dev nD) (E : Set ℕ) (i : grid1.Coords) (arg1 : Memref sig .tc .vmem S2000x1024 .f32) (harg1 : arg1.IsWhole) (arg2 : Memref sig .tc .vmem S1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole)
    (x0 : Vec F S2000x1024 .f32) (x1 : Vec F S1024x128 .f32) (x2 : Vec F S128x128 .f32) (x3 : Vec F S1x128 .f32) (x4 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__node_out_kernel i arg1 harg1 arg2 harg2 arg3 harg3 arg4 harg4 arg5 harg5 arg6 harg6) K := by
  simp only [cc1__node_out_kernel_eq_skeleton]; unfold cc1__node_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/- The whole program as a run of four segments — the first kernel region, the host operations between the
   regions, the second kernel region, the host operations after it — with the contents of every unscoped buffer
   NAMED at each boundary: the launch memory, then each region's arrays at what its write-backs leave, then each
   host stretch applied. Every weakly fair execution terminates in a state whose unscoped buffers hold the last
   boundary's contents; the argument arrays are never written. -/
import proofs.«162158_j50689204027485_1_alg».proof.Proof.Reg0
import proofs.«162158_j50689204027485_1_alg».proof.Proof.Reg1
import proofs.«162158_j50689204027485_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the first region's entry). -/
abbrev W0 : Dev nD → Valuation τ sig (Elt F) := fun c b => m (c, b)
abbrev VR0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (VR0 m) c).arrAt w cfg0.N
theorem W1_arr (c : Dev nD) (w : Fin cfg0.W) :
    W1 m c (Proc.devRef .tc (Pipeline.arrRef spec0 w)) = (dat0 (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VR1 : (c : Dev nD) → (b : Ref sig .tc) → Buf (Elt F) ((c : Thread nD τ).loc b) := fun c b => W1 m c b
theorem hF0 (c : Dev nD) (w : Fin cfg0.W) : (dat0 (VR0 m) c).arrAt w cfg0.N = VR1 m c (Pipeline.arrRef spec0 w) :=
  (W1_arr m c w).symm
theorem hrest0 (c : Dev nD) : ∀ b, b ∉ Finset.univ.image (Pipeline.arrRef spec0) → VR1 m c b = VR0 m c b :=
  fun b hb => W1_of_ne m c b fun w e => hb (Finset.mem_image.mpr ⟨w, Finset.mem_univ _, e⟩)
/-- After the host operations between the regions (the second region's entry). -/
abbrev W2 : Dev nD → Valuation τ sig (Elt F) := fun c => StableHlo.after hostOps1 (W1 m c)
abbrev VR2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (VR2 m) c).arrAt w cfg1.N
theorem W3_arr (c : Dev nD) (w : Fin cfg1.W) :
    W3 m c (Proc.devRef .tc (Pipeline.arrRef spec1 w)) = (dat1 (VR2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VR3 : (c : Dev nD) → (b : Ref sig .tc) → Buf (Elt F) ((c : Thread nD τ).loc b) := fun c b => W3 m c b
theorem hF1 (c : Dev nD) (w : Fin cfg1.W) : (dat1 (VR2 m) c).arrAt w cfg1.N = VR3 m c (Pipeline.arrRef spec1 w) :=
  (W3_arr m c w).symm
theorem hrest1 (c : Dev nD) : ∀ b, b ∉ Finset.univ.image (Pipeline.arrRef spec1) → VR3 m c b = VR2 m c b :=
  fun b hb => W3_of_ne m c b fun w e => hb (Finset.mem_image.mpr ⟨w, Finset.mem_univ _, e⟩)
/-- After the host operations that follow the second region: the contents the program ends with. -/
abbrev W4 : Dev nD → Valuation τ sig (Elt F) := fun c => StableHlo.after hostOps2 (W3 m c)

/-- A host stretch leaves every buffer it does not write. -/
theorem W2_of (c : Dev nD) (r : Ref sig .tc) (h : r ∉ hostOps1_W) : W2 m c (Proc.devRef .tc r) = W1 m c (Proc.devRef .tc r) :=
  StableHlo.after_of_writes_sub hostOps1 _ hostOps1_writes h
theorem W4_of (c : Dev nD) (r : Ref sig .tc) (h : r ∉ hostOps2_W) : W4 m c (Proc.devRef .tc r) = W3 m c (Proc.devRef .tc r) :=
  StableHlo.after_of_writes_sub hostOps2 _ hostOps2_writes h

/-! The argument arrays end as launched: no host operation writes one, a region only reads it through an input window. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := (W3_arr m c 4).trans (((dat1 (VR2 m) c).arrAt_in 4 rfl _).trans (A_eq1 (VR2 m) c 4))
    _ = W1 m c (Proc.devRef .tc main_arg0) := W2_of m c main_arg0 (by decide)
    _ = W0 m c (Proc.devRef .tc main_arg0) := (W1_arr m c 0).trans (((dat0 (VR0 m) c).arrAt_in 0 rfl _).trans (A_eq0 (VR0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := (W3_arr m c 0).trans (((dat1 (VR2 m) c).arrAt_in 0 rfl _).trans (A_eq1 (VR2 m) c 0))
    _ = W1 m c (Proc.devRef .tc main_arg1) := W2_of m c main_arg1 (by decide)
    _ = W0 m c (Proc.devRef .tc main_arg1) := (W1_arr m c 1).trans (((dat0 (VR0 m) c).arrAt_in 1 rfl _).trans (A_eq0 (VR0 m) c 1))
    _ = m ((c : Thread nD τ).loc main_arg1) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of m c main_arg4 (by decide)
    _ = W2 m c (Proc.devRef .tc main_arg4) := (W3_arr m c 2).trans (((dat1 (VR2 m) c).arrAt_in 2 rfl _).trans (A_eq1 (VR2 m) c 2))
    _ = W1 m c (Proc.devRef .tc main_arg4) := W2_of m c main_arg4 (by decide)
    _ = W0 m c (Proc.devRef .tc main_arg4) := W1_of_ne m c main_arg4 (by decide)
    _ = m ((c : Thread nD τ).loc main_arg4) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of m c main_arg2 (by decide)
    _ = W2 m c (Proc.devRef .tc main_arg2) := W3_of_ne m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of m c main_arg3 (by decide)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of m c main_arg5 (by decide)
    _ = W2 m c (Proc.devRef .tc main_arg5) := W3_of_ne m c main_arg5 (by decide)
    _ = W1 m c (Proc.devRef .tc main_arg5) := W2_of m c main_arg5 (by decide)
    _ = W0 m c (Proc.devRef .tc main_arg5) := W1_of_ne m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of m c main_arg6 (by decide)
    _ = W2 m c (Proc.devRef .tc main_arg6) := W3_of_ne m c main_arg6 (by decide)
    _ = W1 m c (Proc.devRef .tc main_arg6) := W2_of m c main_arg6 (by decide)
    _ = W0 m c (Proc.devRef .tc main_arg6) := W1_of_ne m c main_arg6 (by decide)
    _ = m ((c : Thread nD τ).loc main_arg6) := rfl

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR2 m) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The first kernel region over the thread state: entered from every unscoped buffer at `W0`, left at `W1`.
    Its arrays are split out of the unscoped buffers and put back at the exit contents; the generator register goes into
    the class invariant and comes back; nothing is owed; the kernel has no semaphore of its own. -/
def regH0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ LH lvH 0 fun _ _ => rfl
  pre c := iprop(StableHlo.held (c : Thread nD τ) (Pipeline.ucRefs τ sig) (W0 m c) ∗ RH c)
  post c := iprop(StableHlo.held (c : Thread nD τ) (Pipeline.ucRefs τ sig) (W1 m c) ∗ RH c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (Phi_in0 (VR0 m) c)
    unfold Pipeline.ΦA
    iintro ⟨Hp, -, Hr⟩
    isplitl [Hr]; · iexact Hr
    iexact Hp
  hout c := by
    rw [Pipeline.ownSems0_none]
    refine (show (pdatsH m 0 c).Φ (Fin.last _) ⊢ Pipeline.ΦA spec0 c from Phi_out0 (VR0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (VR0 m c) (VR1 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region over the thread state: entered from every unscoped buffer at `W2`, left at `W3`.
    Its arrays are split out of the unscoped buffers and put back at the exit contents; the generator register goes into
    the class invariant and comes back; nothing is owed; the kernel has no semaphore of its own. -/
def regH1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VR2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (VR2 m c) (VR3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segsH : List (Pipeline.Seg (pcfgs (F := F)) adm (pdatsH m) () defs₀ 𝒱H LH lvH) :=
  [ .region (regH0 m),
    .host (hsegH hostOps1 hostOps1_sub hostOps1_fresh (W1 m)),
    .region (regH1 m),
    .host (hsegH hostOps2 hostOps2_sub hostOps2_fresh (W3 m)) ]
theorem main_run (c : Dev nD) : main (F := F) c = Pipeline.Seg.run (segsH m) := (main_chain c).trans (by chain_rfl)

set_option backward.isDefEq.respectTransparency.types false in
/-- THE RUN: from any memory with zero counters every weakly fair execution of the program on the TensorCores terminates,
    nothing faulting, and in every final state each unscoped buffer holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (StableHlo.after hostOps2 (W3 m c)) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Hand

end
-- ==== Proof.Val0A.lean ====
/- What each case of the reduction kernel's body leaves in its three outputs and in the accumulator, as the
   body's arithmetic applied to the point's two input blocks (and, after the first point, to what the accumulator
   held): the accumulator and the first output get the accumulator's old contents (zero at the first point) plus
   the product of the two blocks; the second output the row sums of the incidence block; the third the row sums
   of the squared feature block. -/
import proofs.«162158_j50689204027485_1_alg».proof.Proof.Reg0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- Case A: the accumulator ends at its old contents plus the blocks' product. -/
theorem soutA_eq (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) :
    sout0_A_0 c i arg1 harg1 arg2 harg2 arg3 harg3 arg4 harg4 arg5 harg5 arg6 harg6 hc0 x0 x1 = k0_pay2 x1 x0 (k0_pay1 (F := F)) := by
  unfold sout0_A_0
  rw [View.read_writes_eq_canon _ _ _ (scover0_A_0 c i arg1 harg1 arg2 harg2 arg3 harg3 arg4 harg4 arg5 harg5 arg6 harg6 hc0 x0 x1)]
  unfold kernelRun0_A
  dsimp only
  try sl_unfold_words
  rw [View.canon_cons_unit_zero hz2]
  simp only [View.readCov_unit_zero (S := S1024x128) _ hz2, View.readAt_eq_ld, harg1.read_unread, harg2.read_unread, View.ld_unit_zero (S := S2000x128) hz2, View.ld_unit_zero (S := S2000x1024) hz2, View.ld_unit_zero (S := S1024x128) hz2]
/-- Case A: the first output is the accumulator's copy. -/
theorem outA2_eq (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) :
    out0_A_2 c i arg1 harg1 arg2 harg2 arg3 harg3 arg4 harg4 arg5 harg5 arg6 harg6 hc0 x0 x1 = k0_pay2 x1 x0 (k0_pay1 (F := F)) := by
  unfold out0_A_2
  rw [View.read_writes_eq_canon _ _ _ (cover0_A_2 c i arg1 harg1 arg2 harg2 arg3 harg3 arg4 harg4 arg5 harg5 arg6 harg6 hc0 x0 x1)]
  unfold kernelRun0_A
  dsimp only
  try sl_unfold_words
  rw [View.canon_unit_zero (S := S1024x128) hz2, View.readCov_eq_canon_ld _ _ _ (fun y => ⟨_, List.mem_cons_self, View.mem_set_unit_zero hz2 inb_S1024x128_S1024x128_0_0 y⟩), View.canon_cons_unit_zero hz2, View.ld_unit_zero (S := S1024x128) hz2]
  simp only [View.readCov_unit_zero (S := S1024x128) _ hz2, View.readAt_eq_ld, harg1.read_unread, harg2.read_unread, View.ld_unit_zero (S := S2000x128) hz2, View.ld_unit_zero (S := S2000x1024) hz2, View.ld_unit_zero (S := S1024x128) hz2]
/-- Case A: the second output is the row sums of the incidence block. -/
theorem outA3_eq (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) :
    out0_A_3 c i arg1 harg1 arg2 harg2 arg3 harg3 arg4 harg4 arg5 harg5 arg6 harg6 hc0 x0 x1 = k0_pay3 x1 := by
  unfold out0_A_3
  rw [View.read_writes_eq_canon _ _ _ (cover0_A_3 c i arg1 harg1 arg2 harg2 arg3 harg3 arg4 harg4 arg5 harg5 arg6 harg6 hc0 x0 x1)]
  unfold kernelRun0_A
  dsimp only
  try sl_unfold_words
  rw [View.canon_unit_zero hz2]
  simp only [View.readAt_eq_ld, harg1.read_unread, harg2.read_unread, View.ld_unit_zero (S := S2000x128) hz2, View.ld_unit_zero (S := S2000x1024) hz2]
/-- Case A: the third output is the row sums of the squared feature block. -/
theorem outA4_eq (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : cond0_0 i) (x0 : Vec F S2000x128 .f32) (x1 : Vec F S2000x1024 .f32) :
    out0_A_4 c i arg1 harg1 arg2 harg2 arg3 harg3 arg4 harg4 arg5 harg5 arg6 harg6 hc0 x0 x1 = k0_pay4 x0 := by
  unfold out0_A_4
  rw [View.read_writes_eq_canon _ _ _ (cover0_A_4 c i arg1 harg1 arg2 harg2 arg3 harg3 arg4 harg4 arg5 harg5 arg6 harg6 hc0 x0 x1)]
  unfold kernelRun0_A
  dsimp only
  try sl_unfold_words
  rw [View.canon_unit_zero hz2]
  simp only [View.readAt_eq_ld, harg1.read_unread, harg2.read_unread, View.ld_unit_zero (S := S2000x128) hz2, View.ld_unit_zero (S := S2000x1024) hz2]

/-- Case B: the accumulator ends at its old contents plus the blocks' product. -/
theorem soutB_eq (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) :
    sout0_B_0 c i arg1 harg1 arg2 harg2 arg3 harg3 arg4 harg4 arg5 harg5 arg6 harg6 hc0 x0 x1 xs0 = k0_pay2 x1 x0 xs0 := by
  unfold sout0_B_0
  rw [View.read_writes_eq_canon _ _ _ (scover0_B_0 c i arg1 harg1 arg2 harg2 arg3 harg3 arg4 harg4 arg5 harg5 arg6 harg6 hc0 x0 x1 xs0)]
  unfold kernelRun0_B
  dsimp only
  try sl_unfold_words
  rw [View.canon_cons_unit_zero hz2]
  simp only [View.readCov_unit_zero (S := S1024x128) _ hz2, View.readAt_eq_ld, harg1.read_unread, harg2.read_unread, harg6.read_unread, View.ld_unit_zero (S := S2000x128) hz2, View.ld_unit_zero (S := S2000x1024) hz2, View.ld_unit_zero (S := S1024x128) hz2]
/-- Case B: the first output is the accumulator's copy. -/
theorem outB2_eq (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) :
    out0_B_2 c i arg1 harg1 arg2 harg2 arg3 harg3 arg4 harg4 arg5 harg5 arg6 harg6 hc0 x0 x1 xs0 = k0_pay2 x1 x0 xs0 := by
  unfold out0_B_2
  rw [View.read_writes_eq_canon _ _ _ (cover0_B_2 c i arg1 harg1 arg2 harg2 arg3 harg3 arg4 harg4 arg5 harg5 arg6 harg6 hc0 x0 x1 xs0)]
  unfold kernelRun0_B
  dsimp only
  try sl_unfold_words
  rw [View.canon_unit_zero (S := S1024x128) hz2, View.readCov_unit_zero (S := S1024x128) _ hz2]
  simp only [View.readAt_eq_ld, harg1.read_unread, harg2.read_unread, harg6.read_unread, View.ld_unit_zero (S := S2000x128) hz2, View.ld_unit_zero (S := S2000x1024) hz2, View.ld_unit_zero (S := S1024x128) hz2]
/-- Case B: the second output is the row sums of the incidence block. -/
theorem outB3_eq (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) :
    out0_B_3 c i arg1 harg1 arg2 harg2 arg3 harg3 arg4 harg4 arg5 harg5 arg6 harg6 hc0 x0 x1 xs0 = k0_pay3 x1 := by
  unfold out0_B_3
  rw [View.read_writes_eq_canon _ _ _ (cover0_B_3 c i arg1 harg1 arg2 harg2 arg3 harg3 arg4 harg4 arg5 harg5 arg6 harg6 hc0 x0 x1 xs0)]
  unfold kernelRun0_B
  dsimp only
  try sl_unfold_words
  rw [View.canon_unit_zero hz2]
  simp only [View.readAt_eq_ld, harg1.read_unread, harg2.read_unread, harg6.read_unread, View.ld_unit_zero (S := S2000x128) hz2, View.ld_unit_zero (S := S2000x1024) hz2]
/-- Case B: the third output is the row sums of the squared feature block. -/
theorem outB4_eq (c : Dev nD) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S2000x1 .f32) (harg4 : arg4.IsWhole) (arg5 : Memref sig .tc .vmem S2000x1 .f32) (harg5 : arg5.IsWhole) (arg6 : Memref sig .tc .vmem S1024x128 .f32) (harg6 : arg6.IsWhole) (hc0 : ¬cond0_0 i) (x0 : Vec F S2000x128 .f32) (x1 : Vec F S2000x1024 .f32) (xs0 : Vec F S1024x128 .f32) :
    out0_B_4 c i arg1 harg1 arg2 harg2 arg3 harg3 arg4 harg4 arg5 harg5 arg6 harg6 hc0 x0 x1 xs0 = k0_pay4 x0 := by
  unfold out0_B_4
  rw [View.read_writes_eq_canon _ _ _ (cover0_B_4 c i arg1 harg1 arg2 harg2 arg3 harg3 arg4 harg4 arg5 harg5 arg6 harg6 hc0 x0 x1 xs0)]
  unfold kernelRun0_B
  dsimp only
  try sl_unfold_words
  rw [View.canon_unit_zero hz2]
  simp only [View.readAt_eq_ld, harg1.read_unread, harg2.read_unread, harg6.read_unread, View.ld_unit_zero (S := S2000x128) hz2, View.ld_unit_zero (S := S2000x1024) hz2]

section Region0
variable (V : (c : Dev nD) → (b : Ref sig .tc) → Buf (Elt F) ((c : Thread nD τ).loc b))

/-- After every point the second output's staging buffer holds the row sums of the point's incidence block, -/
theorem out3_at (c : Dev nD) (t : Fin cfg0.N) : (outsAt0 V c t.val t.isLt).2.1 = k0_pay3 (iblk0 V c 1 t) := by
  by_cases h0 : t.val = 0
  · rw [outsAt0_A V c t h0]; unfold caseA; dsimp only; apply outA3_eq
  · rw [outsAt0_B V c t h0]; unfold caseB; dsimp only; apply outB3_eq
/-- the third the row sums of the point's squared feature block, -/
theorem out4_at (c : Dev nD) (t : Fin cfg0.N) : (outsAt0 V c t.val t.isLt).2.2.1 = k0_pay4 (iblk0 V c 0 t) := by
  by_cases h0 : t.val = 0
  · rw [outsAt0_A V c t h0]; unfold caseA; dsimp only; apply outA4_eq
  · rw [outsAt0_B V c t h0]; unfold caseB; dsimp only; apply outB4_eq
/-- and the first output's the accumulator's contents. -/
theorem out2_at (c : Dev nD) (t : Fin cfg0.N) : (outsAt0 V c t.val t.isLt).1 = (outsAt0 V c t.val t.isLt).2.2.2 := by
  by_cases h0 : t.val = 0
  · rw [outsAt0_A V c t h0]; unfold caseA; dsimp only; rw [outA2_eq, soutA_eq]
  · rw [outsAt0_B V c t h0]; unfold caseB; dsimp only; rw [outB2_eq, soutB_eq]
/-- The accumulator after the first point: zero plus the first blocks' product. -/
theorem acc_zero (c : Dev nD) (hn : 0 < cfg0.N) :
    (outsAt0 V c 0 hn).2.2.2 = k0_pay2 (iblk0 V c 1 ⟨0, hn⟩) (iblk0 V c 0 ⟨0, hn⟩) (k0_pay1 (F := F)) := by
  rw [outsAt0_A V c ⟨0, hn⟩ rfl]; unfold caseA; dsimp only; apply soutA_eq
/-- The accumulator after a later point: what the point before left plus this point's blocks' product. -/
theorem acc_succ (c : Dev nD) (n : ℕ) (hn : n + 1 < cfg0.N) :
    (outsAt0 V c (n + 1) hn).2.2.2 = k0_pay2 (iblk0 V c 1 ⟨n + 1, hn⟩) (iblk0 V c 0 ⟨n + 1, hn⟩) (outsAt0 V c n (Nat.lt_of_succ_lt hn)).2.2.2 := by
  rw [outsAt0_B V c ⟨n + 1, hn⟩ (Nat.succ_ne_zero n)]; unfold caseB; dsimp only; apply soutB_eq

end Region0

end Cert.KernelIdeal.Hand

end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.Val0Pay.lean ====
/-
  The first kernel's four stored values, read at an index, at the ideal instance (a float is an extended real).

  * the value the first grid step stores in the accumulator window is zero everywhere;
  * the value every grid step stores there is the accumulator read before it plus the product of the two row blocks,
    contracted along the rows of the block (the first axis of both operands), formed in a zero accumulator;
  * the row sums of the incidence block, kept as a column, read zero plus the sum of the row;
  * the squared row norms of the feature block, kept as a column, read zero plus the sum of the squares of the row.
-/
import proofs.«162158_j50689204027485_1_alg».proof.Proof.Gen.KernelIdeal.Skeleton
import proofs.«162158_j50689204027485_1_alg».proof.Proof.LibColumnOps
import proofs.«162158_j50689204027485_1_alg».proof.Proof.LibColumnSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val0

open Idealize.ShloMosaic Idealize.ShloMosaic.ValueIdx Cert.KernelIdeal

/-- The block product's dimension numbers contract the first axis of both operands and keep the other two in order. -/
theorem colDot : ColumnOps.ColDot (K := 2000) (M := 1024) (N := 128) dot_S2000x1024_S2000x128_S1024x128_0_0_1_1_n_n where
  hr := rfl
  hs := rfl
  l0 := fun j q => dot_S2000x1024_S2000x128_S1024x128_0_0_1_1_n_n.lhsIdx_val_of_single rfl j q
  l1 := fun j q => by
    unfold DotDims.lhsIdx
    rw [dif_neg (show ¬(1 : Fin S2000x1024.rank) ∈ dot_S2000x1024_S2000x128_S1024x128_0_0_1_1_n_n.lhsBatch by decide), dif_pos (show (1 : Fin S2000x1024.rank) ∈ dot_S2000x1024_S2000x128_S1024x128_0_0_1_1_n_n.lhsNonContracting by decide)]
    rfl
  r0 := fun j q => dot_S2000x1024_S2000x128_S1024x128_0_0_1_1_n_n.rhsIdx_val_of_single rfl j q
  r1 := fun j q => by
    unfold DotDims.rhsIdx
    rw [dif_neg (show ¬(1 : Fin S2000x128.rank) ∈ dot_S2000x1024_S2000x128_S1024x128_0_0_1_1_n_n.rhsBatch by decide), dif_pos (show (1 : Fin S2000x128.rank) ∈ dot_S2000x1024_S2000x128_S1024x128_0_0_1_1_n_n.rhsNonContracting by decide)]
    rfl

/-- The value the first grid step stores in the accumulator window is zero at every index. -/
theorem pay1_apply (e : Fin 1024) (c : Fin 128) : Gen.k0_pay1 (F := Ideal) (ix2 e c) = 0 := by
  simp only [Gen.k0_pay1, shapeCast_self, broadcast_apply]
  exact Ideal.ofBits_zero_f32

/-- The accumulator's new value at hyperedge `e` and channel `c`: its old value plus the sum over the block's rows of
the incidence entry times the feature entry. -/
theorem pay2_apply (v3 : Vec Ideal S2000x1024 .f32) (v4 : Vec Ideal S2000x128 .f32) (v8 : Vec Ideal S1024x128 .f32)
    (e : Fin 1024) (c : Fin 128) :
    Gen.k0_pay2 v3 v4 v8 (ix2 e c) = v8 (ix2 e c) + ∑ r : Fin 2000, v3 (ix2 r e) * v4 (ix2 r c) := by
  simp only [Gen.k0_pay2, shapeCast_self, addf_apply]
  rw [ColumnOps.matmul_zero_col_apply _ colDot]
  rfl

/-- The incidence block's row sum at row `r`: zero plus the sum of the row. -/
theorem pay3_apply (v3 : Vec Ideal S2000x1024 .f32) (r : Fin 2000) :
    Gen.k0_pay3 v3 (ix2 r (0 : Fin 1)) = 0 + ∑ e : Fin 1024, v3 (ix2 r e) := by
  simp only [Gen.k0_pay3]
  rw [Cert.Lib.ColumnSum.shapeCast_column_apply, zero_add]
  exact Cert.Lib.ColumnSum.lane_sum_apply v3 _ _ _ r

/-- The feature block's squared row norm at row `r`: zero plus the sum of the squares of the row. -/
theorem pay4_apply (v4 : Vec Ideal S2000x128 .f32) (r : Fin 2000) :
    Gen.k0_pay4 v4 (ix2 r (0 : Fin 1)) = 0 + ∑ k : Fin 128, v4 (ix2 r k) * v4 (ix2 r k) := by
  simp only [Gen.k0_pay4]
  rw [Cert.Lib.ColumnSum.shapeCast_column_apply, zero_add]
  exact Cert.Lib.ColumnSum.lane_sum_apply (mulf v4 v4) _ _ _ r

end Cert.KernelIdeal.Val0
-- ==== Proof.Val0Blk.lean ====
/-
  The first kernel region's two input windows: the block at a grid point, read at an index, is the region-entry
  array at the row shifted by the blocks before it. Point `t`'s block of the node features is rows
  `2000 t … 2000 t + 1999` of the array, all 128 columns; its block of the incidence matrix is the same rows, all
  1024 columns.
-/
import proofs.«162158_j50689204027485_1_alg».proof.Proof.Reg0Base
import Idealize.ShloMosaic.Lib.ValueIdx
import Idealize.ShloMosaic.Lib.Pipeline.Value

noncomputable section

namespace Cert.KernelIdeal.Val0

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The feature window's block at point `t`, at row `r` and column `k`, is the feature array at row `2000 t + r`. -/
theorem iblk0_0_apply (c : Dev nD) (t : Fin cfg0.N) (r : Fin 2000) (k : Fin 128) (h : 2000 * t.val + r.val < 100000) :
    (Hand.iblk0 V c 0 t : Vec F S2000x128 .f32) (ix2 r k)
      = (V c main_arg0 : S100000x128.Idx → Elt F .f32) (ix2 ⟨2000 * t.val + r.val, h⟩ k) := by
  have hi : win0_0.index t 0 = t.val ∧ win0_0.index t 1 = 0 :=
    (by decide +kernel : ∀ t : Fin grid0.N, win0_0.index t 0 = t.val ∧ win0_0.index t 1 = 0) t
  unfold Hand.iblk0
  rw [View.read_apply]
  show V c main_arg0 _ = V c main_arg0 _
  congr 1
  funext a
  apply Fin.ext
  match a with
  | ⟨0, _⟩ => show win0_0.index t 0 * 2000 + 1 * r.val = 2000 * t.val + r.val; rw [hi.1]; omega
  | ⟨1, _⟩ => show win0_0.index t 1 * 128 + 1 * k.val = k.val; rw [hi.2]; omega

/-- The incidence window's block at point `t`, at row `r` and column `e`, is the incidence array at row `2000 t + r`. -/
theorem iblk0_1_apply (c : Dev nD) (t : Fin cfg0.N) (r : Fin 2000) (e : Fin 1024) (h : 2000 * t.val + r.val < 100000) :
    (Hand.iblk0 V c 1 t : Vec F S2000x1024 .f32) (ix2 r e)
      = (V c main_arg1 : S100000x1024.Idx → Elt F .f32) (ix2 ⟨2000 * t.val + r.val, h⟩ e) := by
  have hi : win0_1.index t 0 = t.val ∧ win0_1.index t 1 = 0 :=
    (by decide +kernel : ∀ t : Fin grid0.N, win0_1.index t 0 = t.val ∧ win0_1.index t 1 = 0) t
  unfold Hand.iblk0
  rw [View.read_apply]
  show V c main_arg1 _ = V c main_arg1 _
  congr 1
  funext a
  apply Fin.ext
  match a with
  | ⟨0, _⟩ => show win0_1.index t 0 * 2000 + 1 * r.val = 2000 * t.val + r.val; rw [hi.1]; omega
  | ⟨1, _⟩ => show win0_1.index t 1 * 1024 + 1 * e.val = e.val; rw [hi.2]; omega

end Cert.KernelIdeal.Val0
-- ==== Proof.LibBlockSums.lean ====
/-
  Two general facts about finite sums in a commutative additive monoid.

  * `sum_fin_blocks`: a sum over the first `a * b` natural numbers can be taken block by block, in `a`
    consecutive blocks of `b` terms each: block `t` holds the indices `b * t + r` for `r < b`.
  * `fold_add_eq_sum`: an accumulator that starts at `0 + B 0` and is increased by `B (t + 1)` at step
    `t + 1` holds, after step `t`, the sum of `B 0, …, B t`.
-/
import Mathlib.Algebra.BigOperators.Fin
import Mathlib.Algebra.BigOperators.Intervals

namespace Cert.Lib.BlockSums

open Finset

/-- A sum over `a * b` consecutive indices, taken in `a` consecutive blocks of `b` indices each. -/
theorem sum_fin_blocks {M : Type*} [AddCommMonoid M] (a b : ℕ) (g : ℕ → M) :
    ∑ n : Fin (a * b), g n.val = ∑ t ∈ Finset.range a, ∑ r : Fin b, g (b * t + r.val) := by
  rw [Fin.sum_univ_eq_sum_range (fun n => g n) (a * b)]
  induction a with
  | zero => simp
  | succ a ih =>
    rw [Finset.sum_range_succ, ← ih, Nat.succ_mul, Finset.sum_range_add,
      Fin.sum_univ_eq_sum_range (fun r => g (b * a + r)) b]
    congr 1
    refine Finset.sum_congr rfl fun r _ => ?_
    rw [Nat.mul_comm a b]

/-- An accumulator started at zero plus the first block and increased by one block per step is the sum of
the blocks so far. -/
theorem fold_add_eq_sum {M : Type*} [AddCommMonoid M] (B : ℕ → M) (acc : ℕ → M)
    (h0 : acc 0 = 0 + B 0) (hs : ∀ t, acc (t + 1) = acc t + B (t + 1)) (t : ℕ) :
    acc t = ∑ s ∈ Finset.range (t + 1), B s := by
  induction t with
  | zero => rw [h0, zero_add, Finset.sum_range_one]
  | succ t ih => rw [hs, ih, Finset.sum_range_succ _ (t + 1)]

end Cert.Lib.BlockSums
-- ==== Proof.Arr.lean ====
/- The two argument arrays as a region finds them, typed as functions of a literal index into the extended reals. -/
import proofs.«162158_j50689204027485_1_alg».proof.Proof.Gen.KernelIdeal
import Idealize.ShloMosaic.PureOps.Ideal

noncomputable section

namespace Cert.KernelIdeal.Val0

open Cert.KernelIdeal Idealize.ShloMosaic Idealize.ShloMosaic.TcCoe Idealize.SL.Sem

variable (V : (c : Dev nD) → (b : Ref sig .tc) → Buf (Elt Ideal) ((c : Thread nD τ).loc b))

/-- The incidence matrix, rows by hyperedges. -/
abbrev arrInc (c : Dev nD) : S100000x1024.Idx → EReal := V c main_arg1
/-- The node features, rows by channels. -/
abbrev arrFeat (c : Dev nD) : S100000x128.Idx → EReal := V c main_arg0

end Cert.KernelIdeal.Val0

end
-- ==== Proof.Val0B.lean ====
/- The first kernel region's accumulated output at the ideal instance: after point n the accumulator at (e, k) is the
   sum over the first n+1 row blocks of the products incidence(row, e) · features(row, k); after the last point that
   is the sum over all 100000 rows, and the first output array, written back once at the end, holds it. -/
import proofs.«162158_j50689204027485_1_alg».proof.Proof.Val0A
import proofs.«162158_j50689204027485_1_alg».proof.Proof.Val0Pay
import proofs.«162158_j50689204027485_1_alg».proof.Proof.Val0Blk
import proofs.«162158_j50689204027485_1_alg».proof.Proof.LibBlockSums
import proofs.«162158_j50689204027485_1_alg».proof.Proof.Arr
import Idealize.ShloMosaic.Lib.Pipeline.Value
import Idealize.ShloMosaic.Lib.ValueIdx

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `n`'s term of the product at (e, k) (zero past the last row). -/
def term (c : Dev nD) (e : Fin 1024) (k : Fin 128) (n : ℕ) : EReal :=
  if h : n < 100000 then arrInc V c (ix2 ⟨n, h⟩ e) * arrFeat V c (ix2 ⟨n, h⟩ k) else 0
/-- Row block `s`'s part of the product at (e, k). -/
def blockSum (c : Dev nD) (e : Fin 1024) (k : Fin 128) (s : ℕ) : EReal := ∑ r : Fin 2000, term V c e k (2000 * s + r.val)

/-- The product of two blocks at (e, k): the sum over the block's rows. -/
def blockDot (x1 : Vec Ideal S2000x1024 .f32) (x0 : Vec Ideal S2000x128 .f32) (e : Fin 1024) (k : Fin 128) : EReal :=
  ∑ r : Fin 2000, x1 (ix2 r e) * x0 (ix2 r k)

theorem block_eq (c : Dev nD) (t : Fin cfg0.N) (e : Fin 1024) (k : Fin 128) :
    blockDot (iblk0 V c 1 t) (iblk0 V c 0 t) e k = blockSum V c e k t.val := by
  unfold blockDot blockSum
  refine Finset.sum_congr rfl fun r _ => ?_
  have ht : t.val < 50 := lt_of_lt_of_eq t.isLt N_0
  have h : 2000 * t.val + r.val < 100000 := by have := r.isLt; omega
  rw [iblk0_1_apply V c t r e h, iblk0_0_apply V c t r k h]
  unfold term; rw [dif_pos h]

theorem pay2_dot (v3 : Vec Ideal S2000x1024 .f32) (v4 : Vec Ideal S2000x128 .f32) (v8 : Vec Ideal S1024x128 .f32) (e : Fin 1024) (k : Fin 128) :
    (k0_pay2 v3 v4 v8 (ix2 e k) : EReal) = v8 (ix2 e k) + blockDot v3 v4 e k := pay2_apply v3 v4 v8 e k

/-- The accumulator after point `n`: the sum of the first n+1 blocks' parts. -/
theorem acc_eq (c : Dev nD) (e : Fin 1024) (k : Fin 128) : ∀ (n : ℕ) (hn : n < cfg0.N),
    (((outsAt0 V c n hn).2.2.2 : Vec Ideal S1024x128 .f32) (ix2 e k) : EReal) = ∑ s ∈ Finset.range (n + 1), blockSum V c e k s
  | 0, hn => by
    rw [acc_zero V c hn, pay2_dot, block_eq V c ⟨0, hn⟩ e k, Finset.sum_range_one]
    exact (congrArg (· + blockSum V c e k 0) (pay1_apply e k)).trans (zero_add _)
  | n + 1, hn => by
    rw [acc_succ V c n hn, pay2_dot, block_eq V c ⟨n + 1, hn⟩ e k, Finset.sum_range_succ]
    exact congrArg (· + blockSum V c e k (n + 1)) (acc_eq c e k n (Nat.lt_of_succ_lt hn))

/-- The whole product: the sum over all rows. -/
def heRaw (c : Dev nD) : S1024x128.Idx → EReal := fun i =>
  ∑ n : Fin 100000, arrInc V c (ix2 n (i 0)) * arrFeat V c (ix2 n (i 1))

theorem sum_blocks_all (c : Dev nD) (e : Fin 1024) (k : Fin 128) :
    ∑ s ∈ Finset.range 50, blockSum V c e k s = ∑ n : Fin 100000, arrInc V c (ix2 n e) * arrFeat V c (ix2 n k) := by
  have h := Cert.Lib.BlockSums.sum_fin_blocks 50 2000 (term V c e k)
  refine (show ∑ s ∈ Finset.range 50, blockSum V c e k s = ∑ n : Fin (50 * 2000), term V c e k n.val from h.symm).trans ?_
  show ∑ n : Fin 100000, term V c e k n.val = _
  refine Finset.sum_congr rfl fun n _ => ?_
  unfold term; rw [dif_pos n.isLt]

/-- What the first output's staging buffer holds after the last point is the whole product. -/
theorem after_last (c : Dev nD) (h49 : 49 < cfg0.N) : ((outsAt0 V c 49 h49).1 : Vec Ideal S1024x128 .f32) = heRaw V c := by
  funext i
  obtain ⟨e, k, rfl⟩ : ∃ (e : Fin 1024) (k : Fin 128), i = ix2 e k := ⟨i 0, i 1, eq_ix2 i⟩
  rw [out2_at V c ⟨49, h49⟩, acc_eq V c e k 49 h49, sum_blocks_all]
  rfl

/-- The first output's window sits on block (0, 0) at every point, a block as large as the array. -/
theorem idx2_zero : ∀ t : Fin cfg0.N, ∀ a, win0_2.index t a = 0 :=
  (by decide +kernel : ∀ t : Fin grid0.N, ∀ a, win0_2.index t a = 0)
theorem xsize2 : ∀ t : Fin cfg0.N, win0_2.xsize (grid0.coords t) 0 = 1024 ∧ win0_2.xsize (grid0.coords t) 1 = 128 :=
  (by decide +kernel : ∀ t : Fin grid0.N, win0_2.xsize (grid0.coords t) 0 = 1024 ∧ win0_2.xsize (grid0.coords t) 1 = 128)

/-- The one write-back of the first output, at the last point, writes the whole product. -/
theorem flushed2_eq (c : Dev nD) (t : Fin cfg0.N) (hf : (cfg0.win 2).flush t = true) :
    (dat0 V c).flushed 2 t = ((cfg0.win 2).blk t).view.read (Elt Ideal) (heRaw V c) := by
  have hN : cfg0.N = 50 := N_0
  have h1 : t.val = 49 := by have := (flush0_2 t).mp hf; have := t.isLt; omega
  have h49 : 49 < cfg0.N := h1 ▸ t.isLt
  obtain rfl : t = ⟨49, h49⟩ := Fin.ext h1
  show (cfg0.win 2).cut (grid0.coords ⟨49, h49⟩) ((dat0 V c).after 2 ⟨49, h49⟩) = _
  rw [after0_2, after_last V c h49]
  have hz' : (fun a => win0_2.index ⟨49, h49⟩ a * main_v0_0.ty.shape.size a) = fun _ => 0 :=
    funext fun a => by rw [idx2_zero]; exact Nat.zero_mul _
  exact (Memref.read_access_unit_zero (Elt Ideal) main_v0_0 hz' (fun a => by rw [congrFun hz' a]; simp) (heRaw V c)).symm

/-- So the first output array ends holding the whole product. -/
theorem final0_2 (c : Dev nD) : (dat0 V c).arrAt 2 cfg0.N = heRaw V c := by
  have h49 : 49 < cfg0.N := by rw [show cfg0.N = 50 from N_0]; decide
  exact (dat0 V c).arrAt_eq_of_cover 2 (heRaw V c) (flushed2_eq V c) fun i =>
    ⟨⟨49, h49⟩, (flush0_2 _).mpr rfl, by
      show i ∈ ((View.whole main_v0_0).slice (win0_2.rect ⟨49, h49⟩)).set
      rw [View.set_slice_whole, Rect.mem_set_unit]
      intro a
      have h0 : (i 0 : Nat) < 1024 := (i 0).isLt
      have h1 : (i 1 : Nat) < 128 := (i 1).isLt
      match a with
      | ⟨0, _⟩ =>
        show win0_2.index ⟨49, h49⟩ 0 * win0_2.size 0 ≤ (i 0 : Nat) ∧ (i 0 : Nat) < win0_2.index ⟨49, h49⟩ 0 * win0_2.size 0 + win0_2.xsize (grid0.coords ⟨49, h49⟩) 0
        rw [idx2_zero, (xsize2 ⟨49, h49⟩).1]; omega
      | ⟨1, _⟩ =>
        show win0_2.index ⟨49, h49⟩ 1 * win0_2.size 1 ≤ (i 1 : Nat) ∧ (i 1 : Nat) < win0_2.index ⟨49, h49⟩ 1 * win0_2.size 1 + win0_2.xsize (grid0.coords ⟨49, h49⟩) 1
        rw [idx2_zero, (xsize2 ⟨49, h49⟩).2]; omega⟩

end Cert.KernelIdeal.Val0

end
-- ==== Proof.Fin0.lean ====
/-
  The first kernel region's second and third output arrays (the per-row sums, kept as columns) as functions of the
  region-entry arrays. Every grid point writes back its block of 2000 rows; the blocks tile the 100000 rows, point
  `t` covering rows `2000 t … 2000 t + 1999`, so after the last point each array holds, at row `n`, the value the
  point `n / 2000` stored for it: zero plus the sum of the incidence row (the degree), and zero plus the sum of the
  squares of the feature row (the squared norm).
-/
import proofs.«162158_j50689204027485_1_alg».proof.Proof.Val0A
import proofs.«162158_j50689204027485_1_alg».proof.Proof.Arr
import proofs.«162158_j50689204027485_1_alg».proof.Proof.Val0Pay
import proofs.«162158_j50689204027485_1_alg».proof.Proof.Val0Blk
import Idealize.ShloMosaic.Lib.Pipeline.Value

noncomputable section

namespace Cert.KernelIdeal.Val0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Output window 3 -/

/-- The degrees as a column: at row `n`, zero plus the sum of the incidence row `n`. -/
def G3 (c : Dev nD) : S100000x1.Idx → EReal := fun i =>
  0 + ∑ e : Fin 1024, arrInc V c (ix2 (⟨(i 0).val, (i 0).isLt⟩ : Fin 100000) e)

/-- The window's index map, decided over the grid: point `t` has block `(t, 0)`. -/
theorem idx_facts3 : ∀ t : Fin cfg0.N, win0_3.index t 0 = t.val ∧ win0_3.index t 1 = 0 :=
  (by decide +kernel : ∀ t : Fin grid0.N, win0_3.index t 0 = t.val ∧ win0_3.index t 1 = 0)

/-- What point `t` writes back is block `t` of `G3`: rows `2000 t … 2000 t + 1999`. -/
theorem flushed3_eq (c : Dev nD) (t : Fin cfg0.N) :
    (Hand.dat0 V c).flushed 3 t = ((cfg0.win 3).blk t).view.read (Elt Ideal) (G3 V c) := by
  show (cfg0.win 3).cut (grid0.coords t) ((Hand.dat0 V c).after 3 t) = _
  rw [Hand.after0_3, Hand.out3_at]
  funext y
  have ht : t.val < 50 := lt_of_lt_of_eq t.isLt N_0
  have h0 : (y 0).val < 2000 := Nat.lt_of_lt_of_le (y 0).isLt ((cfg0.win 3).xsize_le (grid0.coords t) 0)
  have h1 : (y 1).val < 1 := Nat.lt_of_lt_of_le (y 1).isLt ((cfg0.win 3).xsize_le (grid0.coords t) 1)
  have hrow : 2000 * t.val + (y 0).val < 100000 := by omega
  have hq : (cfg0.win 3).xinj (grid0.coords t) y = ix2 (⟨(y 0).val, h0⟩ : Fin 2000) (0 : Fin 1) :=
    funext fun a => Fin.ext (by
      match a with
      | ⟨0, _⟩ => rfl
      | ⟨1, _⟩ => show (y 1).val = 0; omega)
  have hemb : (⟨((((cfg0.win 3).blk t).view.emb y) 0).val, ((((cfg0.win 3).blk t).view.emb y) 0).isLt⟩ : Fin 100000)
      = ⟨2000 * t.val + (y 0).val, hrow⟩ := Fin.ext (by
    show win0_3.index t 0 * 2000 + 1 * (y 0).val = 2000 * t.val + (y 0).val
    rw [(idx_facts3 t).1]; omega)
  show Gen.k0_pay3 (Hand.iblk0 V c 1 t) ((cfg0.win 3).xinj (grid0.coords t) y) = G3 V c (((cfg0.win 3).blk t).view.emb y)
  rw [hq, pay3_apply]
  unfold G3
  rw [hemb]
  refine congrArg (fun s => (0 : EReal) + s) (Finset.sum_congr rfl fun e _ => ?_)
  rw [iblk0_1_apply V c t ⟨(y 0).val, h0⟩ e hrow]

/-- An index of the array is in point `t`'s block iff each coordinate is in the block's range on its axis. -/
theorem mem_blk3 (t : Fin cfg0.N) (i : S100000x1.Idx) :
    i ∈ ((cfg0.win 3).blk t).view.set ↔ ∀ a : Fin 2, win0_3.index t a * S2000x1.size a ≤ (i a).val ∧ (i a).val < win0_3.index t a * S2000x1.size a + S2000x1.size a := by
  show i ∈ ((View.whole main_v0_1).slice (win0_3.rect t)).set ↔ _
  rw [View.set_slice_whole, Rect.mem_set_unit]
  exact Iff.rfl

/-- The blocks tile the array: row `n` is in the block of point `n / 2000`, and every point writes its block back. -/
theorem cover3 (i : S100000x1.Idx) :
    ∃ t : Fin cfg0.N, (cfg0.win 3).flush t = true ∧ i ∈ ((cfg0.win 3).blk t).view.set := by
  have hi0 : (i 0).val < 100000 := (i 0).isLt
  have hi1 : (i 1).val < 1 := (i 1).isLt
  have hT : (i 0).val / 2000 < cfg0.N := by rw [show cfg0.N = 50 from N_0]; omega
  have e0 : win0_3.index ⟨(i 0).val / 2000, hT⟩ 0 = (i 0).val / 2000 := (idx_facts3 ⟨(i 0).val / 2000, hT⟩).1
  have e1 : win0_3.index ⟨(i 0).val / 2000, hT⟩ 1 = 0 := (idx_facts3 ⟨(i 0).val / 2000, hT⟩).2
  refine ⟨⟨(i 0).val / 2000, hT⟩, flush0_3 _, ?_⟩
  rw [mem_blk3]
  intro a
  match a with
  | ⟨0, _⟩ =>
    show win0_3.index ⟨(i 0).val / 2000, hT⟩ 0 * 2000 ≤ (i 0).val ∧ (i 0).val < win0_3.index ⟨(i 0).val / 2000, hT⟩ 0 * 2000 + 2000
    rw [e0]; omega
  | ⟨1, _⟩ =>
    show win0_3.index ⟨(i 0).val / 2000, hT⟩ 1 * 1 ≤ (i 1).val ∧ (i 1).val < win0_3.index ⟨(i 0).val / 2000, hT⟩ 1 * 1 + 1
    rw [e1]; omega

/-- The array after the region's run is `G3` of the region-entry arrays. -/
theorem final0_3 (c : Dev nD) : (Hand.dat0 V c).arrAt 3 cfg0.N = G3 V c :=
  (Hand.dat0 V c).arrAt_eq_of_cover 3 (G3 V c) (fun t _ => flushed3_eq V c t) (cover3)

/-- The second output array after the region's run, at row `n`: zero plus the sum of the incidence row. -/
theorem final0_3_apply (c : Dev nD) (n : Fin 100000) :
    ((Hand.dat0 (F := Ideal) V c).arrAt 3 cfg0.N : S100000x1.Idx → EReal) (ix2 n (0 : Fin 1))
      = 0 + ∑ e : Fin 1024, arrInc V c (ix2 n e) := by
  rw [final0_3]
  rfl

/-! ## Output window 4 -/

/-- The squared norms as a column: at row `n`, zero plus the sum of the squares of the feature row `n`. -/
def G4 (c : Dev nD) : S100000x1.Idx → EReal := fun i =>
  0 + ∑ k : Fin 128, arrFeat V c (ix2 (⟨(i 0).val, (i 0).isLt⟩ : Fin 100000) k) * arrFeat V c (ix2 (⟨(i 0).val, (i 0).isLt⟩ : Fin 100000) k)

/-- The window's index map, decided over the grid: point `t` has block `(t, 0)`. -/
theorem idx_facts4 : ∀ t : Fin cfg0.N, win0_4.index t 0 = t.val ∧ win0_4.index t 1 = 0 :=
  (by decide +kernel : ∀ t : Fin grid0.N, win0_4.index t 0 = t.val ∧ win0_4.index t 1 = 0)

/-- What point `t` writes back is block `t` of `G4`: rows `2000 t … 2000 t + 1999`. -/
theorem flushed4_eq (c : Dev nD) (t : Fin cfg0.N) :
    (Hand.dat0 V c).flushed 4 t = ((cfg0.win 4).blk t).view.read (Elt Ideal) (G4 V c) := by
  show (cfg0.win 4).cut (grid0.coords t) ((Hand.dat0 V c).after 4 t) = _
  rw [Hand.after0_4, Hand.out4_at]
  funext y
  have ht : t.val < 50 := lt_of_lt_of_eq t.isLt N_0
  have h0 : (y 0).val < 2000 := Nat.lt_of_lt_of_le (y 0).isLt ((cfg0.win 4).xsize_le (grid0.coords t) 0)
  have h1 : (y 1).val < 1 := Nat.lt_of_lt_of_le (y 1).isLt ((cfg0.win 4).xsize_le (grid0.coords t) 1)
  have hrow : 2000 * t.val + (y 0).val < 100000 := by omega
  have hq : (cfg0.win 4).xinj (grid0.coords t) y = ix2 (⟨(y 0).val, h0⟩ : Fin 2000) (0 : Fin 1) :=
    funext fun a => Fin.ext (by
      match a with
      | ⟨0, _⟩ => rfl
      | ⟨1, _⟩ => show (y 1).val = 0; omega)
  have hemb : (⟨((((cfg0.win 4).blk t).view.emb y) 0).val, ((((cfg0.win 4).blk t).view.emb y) 0).isLt⟩ : Fin 100000)
      = ⟨2000 * t.val + (y 0).val, hrow⟩ := Fin.ext (by
    show win0_4.index t 0 * 2000 + 1 * (y 0).val = 2000 * t.val + (y 0).val
    rw [(idx_facts4 t).1]; omega)
  show Gen.k0_pay4 (Hand.iblk0 V c 0 t) ((cfg0.win 4).xinj (grid0.coords t) y) = G4 V c (((cfg0.win 4).blk t).view.emb y)
  rw [hq, pay4_apply]
  unfold G4
  rw [hemb]
  refine congrArg (fun s => (0 : EReal) + s) (Finset.sum_congr rfl fun k _ => ?_)
  rw [iblk0_0_apply V c t ⟨(y 0).val, h0⟩ k hrow]

/-- An index of the array is in point `t`'s block iff each coordinate is in the block's range on its axis. -/
theorem mem_blk4 (t : Fin cfg0.N) (i : S100000x1.Idx) :
    i ∈ ((cfg0.win 4).blk t).view.set ↔ ∀ a : Fin 2, win0_4.index t a * S2000x1.size a ≤ (i a).val ∧ (i a).val < win0_4.index t a * S2000x1.size a + S2000x1.size a := by
  show i ∈ ((View.whole main_v0_2).slice (win0_4.rect t)).set ↔ _
  rw [View.set_slice_whole, Rect.mem_set_unit]
  exact Iff.rfl

/-- The blocks tile the array: row `n` is in the block of point `n / 2000`, and every point writes its block back. -/
theorem cover4 (i : S100000x1.Idx) :
    ∃ t : Fin cfg0.N, (cfg0.win 4).flush t = true ∧ i ∈ ((cfg0.win 4).blk t).view.set := by
  have hi0 : (i 0).val < 100000 := (i 0).isLt
  have hi1 : (i 1).val < 1 := (i 1).isLt
  have hT : (i 0).val / 2000 < cfg0.N := by rw [show cfg0.N = 50 from N_0]; omega
  have e0 : win0_4.index ⟨(i 0).val / 2000, hT⟩ 0 = (i 0).val / 2000 := (idx_facts4 ⟨(i 0).val / 2000, hT⟩).1
  have e1 : win0_4.index ⟨(i 0).val / 2000, hT⟩ 1 = 0 := (idx_facts4 ⟨(i 0).val / 2000, hT⟩).2
  refine ⟨⟨(i 0).val / 2000, hT⟩, flush0_4 _, ?_⟩
  rw [mem_blk4]
  intro a
  match a with
  | ⟨0, _⟩ =>
    show win0_4.index ⟨(i 0).val / 2000, hT⟩ 0 * 2000 ≤ (i 0).val ∧ (i 0).val < win0_4.index ⟨(i 0).val / 2000, hT⟩ 0 * 2000 + 2000
    rw [e0]; omega
  | ⟨1, _⟩ =>
    show win0_4.index ⟨(i 0).val / 2000, hT⟩ 1 * 1 ≤ (i 1).val ∧ (i 1).val < win0_4.index ⟨(i 0).val / 2000, hT⟩ 1 * 1 + 1
    rw [e1]; omega

/-- The array after the region's run is `G4` of the region-entry arrays. -/
theorem final0_4 (c : Dev nD) : (Hand.dat0 V c).arrAt 4 cfg0.N = G4 V c :=
  (Hand.dat0 V c).arrAt_eq_of_cover 4 (G4 V c) (fun t _ => flushed4_eq V c t) (cover4)

/-- The third output array after the region's run, at row `n`: zero plus the sum of the squares of the feature row. -/
theorem final0_4_apply (c : Dev nD) (n : Fin 100000) :
    ((Hand.dat0 (F := Ideal) V c).arrAt 4 cfg0.N : S100000x1.Idx → EReal) (ix2 n (0 : Fin 1))
      = 0 + ∑ k : Fin 128, arrFeat V c (ix2 n k) * arrFeat V c (ix2 n k) := by
  rw [final0_4]
  rfl

end Cert.KernelIdeal.Val0
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.Val1.lean ====
import proofs.«162158_j50689204027485_1_alg».proof.Proof.Reg1
import proofs.«162158_j50689204027485_1_alg».proof.Proof.LibTileRead
import Idealize.ShloMosaic.Lib.ValueIdx
import Idealize.ShloMosaic.Lib.Pipeline.Value
import Idealize.ShloMosaic.Lib.ValueLayout
import Idealize.ShloMosaic.PureOps.Ideal.Laws

/-! # The value of region 1's output block at an index, at the ideal instance

The body's one store writes `(x0 · x1) · x2 + row x3 + x4`: at the ideal instance (the extended reals, where a
narrowing format change is the identity) its entry `(p, q)` is
`∑ k, (∑ e, x0 (p, e) · x1 (e, k)) · x2 (k, q) + x3 (0, q) + x4 (p, q)`. -/

noncomputable section

namespace Cert.KernelIdeal.Val1

open Cert.KernelIdeal Cert.KernelIdeal.Gen
open Idealize.ShloMosaic Idealize.ShloMosaic.ValueIdx
open Cert.Lib.TileRead

/-- The first product's dimension numbers are a plain matrix product's: `[2000, 1024] × [1024, 128]`. -/
theorem plain_dot_a : PlainDot (M := 2000) (K := 1024) (N := 128) dot_S2000x1024_S1024x128_S2000x128_1_0_0_1_n_n where
  hr := rfl
  hs := rfl
  l0 j q := by
    unfold DotDims.lhsIdx
    rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
    rfl
  l1 j q := dot_S2000x1024_S1024x128_S2000x128_1_0_0_1_n_n.lhsIdx_val_of_single rfl j q
  r0 j q := dot_S2000x1024_S1024x128_S2000x128_1_0_0_1_n_n.rhsIdx_val_of_single rfl j q
  r1 j q := by
    unfold DotDims.rhsIdx
    rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
    rfl

/-- The second product's dimension numbers are a plain matrix product's: `[2000, 128] × [128, 128]`. -/
theorem plain_dot_b : PlainDot (M := 2000) (K := 128) (N := 128) dot_S2000x128_S128x128_S2000x128_1_0_0_1_n_n where
  hr := rfl
  hs := rfl
  l0 j q := by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  l1 j q := dot_S2000x128_S128x128_S2000x128_1_0_0_1_n_n.lhsIdx_val_of_single rfl j q
  r0 j q := dot_S2000x128_S128x128_S2000x128_1_0_0_1_n_n.rhsIdx_val_of_single rfl j q
  r1 j q := by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- The zero offsets, however spelt. -/
theorem off_zero : (![0, 0] : Fin 2 → Nat) = fun _ => 0 := by
  funext a; match a with | ⟨0, _⟩ => rfl | ⟨1, _⟩ => rfl

/-- The payload of the body's store at an index, at the ideal instance. -/
theorem k1_pay1_apply (v0 : Vec Ideal S2000x1024 .f32) (v2 : Vec Ideal S1024x128 .f32) (v7 : Vec Ideal S128x128 .f32) (v10 : Vec Ideal S1x128 .f32) (v14 : Vec Ideal S2000x128 .f32) (p : Fin 2000) (q : Fin 128) :
    k1_pay1 (F := Ideal) v0 v2 v7 v10 v14 (ix2 p q) = (∑ k : Fin 128, (∑ e : Fin 1024, v0 (ix2 p e) * v2 (ix2 e k)) * v7 (ix2 k q)) + v10 (ix2 0 q) + v14 (ix2 p q) := by
  unfold k1_pay1
  refine congrArg₂ (· + ·) (congrArg₂ (· + ·) ?_ ?_) rfl
  · refine (matmul_zero_plain_apply _ plain_dot_b none _ _ p q).trans ?_
    refine Finset.sum_congr rfl fun k _ => ?_
    refine congrArg₂ (· * ·) ?_ rfl
    refine (matmul_zero_plain_apply _ plain_dot_a none _ _ p k).trans ?_
    refine Finset.sum_congr rfl fun e _ => ?_
    refine congrArg₂ (· * ·) rfl ?_
    exact congrFun (shapeCast_self v2 _) (ix2 e k)
  · refine (broadcastTo_row_apply _ _ p q).trans ?_
    exact congrFun (shapeCast_self v10 _) (ix2 0 q)

/-- The output block at an index: the one store takes the whole buffer and every load reads a whole buffer. -/
theorem out1_5_apply (x0 : Vec Ideal S2000x1024 .f32) (x1 : Vec Ideal S1024x128 .f32) (x2 : Vec Ideal S128x128 .f32) (x3 : Vec Ideal S1x128 .f32) (x4 : Vec Ideal S2000x128 .f32) (p : Fin 2000) (q : Fin 128) :
    Hand.out1_5 (F := Ideal) x0 x1 x2 x3 x4 (ix2 p q) = (∑ k : Fin 128, (∑ e : Fin 1024, x0 (ix2 p e) * x1 (ix2 e k)) * x2 (ix2 k q)) + x3 (ix2 0 q) + x4 (ix2 p q) := by
  unfold Hand.out1_5
  rw [View.canon_unit_zero off_zero]
  rw [View.ld_unit_zero (S := S2000x1024) off_zero, View.ld_unit_zero (S := S1024x128) off_zero, View.ld_unit_zero (S := S128x128) off_zero,
    View.ld_unit_zero (S := S1x128) off_zero, View.ld_unit_zero (S := S2000x128) off_zero]
  exact k1_pay1_apply x0 x1 x2 x3 x4 p q

end Cert.KernelIdeal.Val1

end
-- ==== Proof.Fin1.lean ====
import proofs.«162158_j50689204027485_1_alg».proof.Proof.Val1
import Idealize.ShloMosaic.Lib.Pipeline.Value

/-! # Region 1's output array after the pipeline, as one function of the region-entry arrays (ideal instance)

Grid point `t` of the 50 writes back rows `2000 t … 2000 t + 1999` of the output; what it writes is the body's block
`(x0 · x1) · x2 + row x3 + x4` of the blocks at `t`: rows `2000 t + p` of the first and the last operand, and the
three small operands whole. So the output array ends holding, at `(n, q)`,
`∑ k, (∑ e, A (n, e) · B (e, k)) · C (k, q) + r (0, q) + D (n, q)` of the arrays as the region finds them: the 50 row
blocks tile the 100000 rows (row `n` is in block `n / 2000`). -/

noncomputable section

namespace Cert.KernelIdeal.Val1

open Cert.KernelIdeal Cert.KernelIdeal.Gen
open Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The region's five input arrays as the region finds them, each at its literal index and element type: the two
    [100000, ·] operands, the two weight matrices and the bias row. -/
abbrev inA (c : Dev nD) : S100000x1024.Idx → EReal := V c main_arg1
abbrev inB (c : Dev nD) : S1024x128.Idx → EReal := V c main_v17
abbrev inC (c : Dev nD) : S128x128.Idx → EReal := V c main_arg4
abbrev inR (c : Dev nD) : S1x128.Idx → EReal := V c main_v18
abbrev inD (c : Dev nD) : S100000x128.Idx → EReal := V c main_arg0

/-- The output at row `n`, column `q`, from the arrays as the region finds them. -/
def G1pt (c : Dev nD) (n : Fin 100000) (q : Fin 128) : EReal :=
  (∑ k : Fin 128, (∑ e : Fin 1024, inA V c (ix2 n e) * inB V c (ix2 e k)) * inC V c (ix2 k q)) + inR V c (ix2 0 q) + inD V c (ix2 n q)

/-- The whole output array as a function of its index. -/
def G1 (c : Dev nD) : S100000x128.Idx → EReal := fun i => G1pt V c (i 0) (i 1)

/-- The printed index maps, decided over the grid: windows 0, 4 and 5 move down the rows with the point, windows 1, 2, 3
    stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of the block at point `t` is row `2000 t + p` of the array. -/
def row (t : Fin cfg1.N) (p : Fin 2000) : Fin 100000 :=
  ⟨2000 * t.val + p.val, by have h : t.val < 50 := lt_of_lt_of_eq t.isLt N_1; have := p.isLt; omega⟩

/-! ## Each input window's block read at an index -/

theorem iblk1_0_apply (c : Dev nD) (t : Fin cfg1.N) (p : Fin 2000) (e : Fin 1024) :
    (Hand.iblk1 V c 0 t : Vec Ideal S2000x1024 .f32) (ix2 p e) = inA V c (ix2 (row t p) e) := by
  obtain ⟨h0, h1, -⟩ := idx_facts1 t
  show inA V c (((cfg1.win 0).blk t).view.emb (ix2 p e)) = _
  congr 1
  funext a; apply Fin.ext
  match a with
  | ⟨0, _⟩ => show win1_0.index t (0 : Fin 2) * 2000 + 1 * p.val = 2000 * t.val + p.val; rw [h0]; omega
  | ⟨1, _⟩ => show win1_0.index t (1 : Fin 2) * 1024 + 1 * e.val = e.val; rw [h1]; omega

theorem iblk1_1_apply (c : Dev nD) (t : Fin cfg1.N) (e : Fin 1024) (k : Fin 128) :
    (Hand.iblk1 V c 1 t : Vec Ideal S1024x128 .f32) (ix2 e k) = inB V c (ix2 e k) := by
  obtain ⟨-, -, h0, h1, -⟩ := idx_facts1 t
  show inB V c (((cfg1.win 1).blk t).view.emb (ix2 e k)) = _
  congr 1
  funext a; apply Fin.ext
  match a with
  | ⟨0, _⟩ => show win1_1.index t (0 : Fin 2) * 1024 + 1 * e.val = e.val; rw [h0]; omega
  | ⟨1, _⟩ => show win1_1.index t (1 : Fin 2) * 128 + 1 * k.val = k.val; rw [h1]; omega

theorem iblk1_2_apply (c : Dev nD) (t : Fin cfg1.N) (k : Fin 128) (q : Fin 128) :
    (Hand.iblk1 V c 2 t : Vec Ideal S128x128 .f32) (ix2 k q) = inC V c (ix2 k q) := by
  obtain ⟨-, -, -, -, h0, h1, -⟩ := idx_facts1 t
  show inC V c (((cfg1.win 2).blk t).view.emb (ix2 k q)) = _
  congr 1
  funext a; apply Fin.ext
  match a with
  | ⟨0, _⟩ => show win1_2.index t (0 : Fin 2) * 128 + 1 * k.val = k.val; rw [h0]; omega
  | ⟨1, _⟩ => show win1_2.index t (1 : Fin 2) * 128 + 1 * q.val = q.val; rw [h1]; omega

theorem iblk1_3_apply (c : Dev nD) (t : Fin cfg1.N) (u : Fin 1) (q : Fin 128) :
    (Hand.iblk1 V c 3 t : Vec Ideal S1x128 .f32) (ix2 u q) = inR V c (ix2 u q) := by
  obtain ⟨-, -, -, -, -, -, h0, h1, -⟩ := idx_facts1 t
  show inR V c (((cfg1.win 3).blk t).view.emb (ix2 u q)) = _
  congr 1
  funext a; apply Fin.ext
  match a with
  | ⟨0, _⟩ => show win1_3.index t (0 : Fin 2) * 1 + 1 * u.val = u.val; rw [h0]; omega
  | ⟨1, _⟩ => show win1_3.index t (1 : Fin 2) * 128 + 1 * q.val = q.val; rw [h1]; omega

theorem iblk1_4_apply (c : Dev nD) (t : Fin cfg1.N) (p : Fin 2000) (q : Fin 128) :
    (Hand.iblk1 V c 4 t : Vec Ideal S2000x128 .f32) (ix2 p q) = inD V c (ix2 (row t p) q) := by
  obtain ⟨-, -, -, -, -, -, -, -, h0, h1, -⟩ := idx_facts1 t
  show inD V c (((cfg1.win 4).blk t).view.emb (ix2 p q)) = _
  congr 1
  funext a; apply Fin.ext
  match a with
  | ⟨0, _⟩ => show win1_4.index t (0 : Fin 2) * 2000 + 1 * p.val = 2000 * t.val + p.val; rw [h0]; omega
  | ⟨1, _⟩ => show win1_4.index t (1 : Fin 2) * 128 + 1 * q.val = q.val; rw [h1]; omega

/-- Where an element of the output's block at point `t` sits in the array. -/
theorem emb1_5 (t : Fin cfg1.N) (p : Fin 2000) (q : Fin 128) :
    (((cfg1.win 5).blk t).view.emb (ix2 p q) : S100000x128.Idx) = ix2 (row t p) q := by
  obtain ⟨-, -, -, -, -, -, -, -, -, -, h0, h1⟩ := idx_facts1 t
  funext a; apply Fin.ext
  match a with
  | ⟨0, _⟩ => show win1_5.index t (0 : Fin 2) * 2000 + 1 * p.val = 2000 * t.val + p.val; rw [h0]; omega
  | ⟨1, _⟩ => show win1_5.index t (1 : Fin 2) * 128 + 1 * q.val = q.val; rw [h1]; omega

/-- The body's block at point `t`, at `(p, q)`, is the array function at row `2000 t + p`. -/
theorem block1_apply (c : Dev nD) (t : Fin cfg1.N) (p : Fin 2000) (q : Fin 128) :
    Hand.out1_5 (F := Ideal) (Hand.iblk1 V c 0 t) (Hand.iblk1 V c 1 t) (Hand.iblk1 V c 2 t) (Hand.iblk1 V c 3 t) (Hand.iblk1 V c 4 t) (ix2 p q)
      = G1pt V c (row t p) q := by
  refine (out1_5_apply _ _ _ _ _ p q).trans ?_
  unfold G1pt
  refine congrArg₂ (· + ·) (congrArg₂ (· + ·) ?_ ?_) ?_
  · refine Finset.sum_congr rfl fun k _ => ?_
    refine congrArg₂ (· * ·) ?_ ?_
    · refine Finset.sum_congr rfl fun e _ => ?_
      exact congrArg₂ (· * ·) (iblk1_0_apply V c t p e) (iblk1_1_apply V c t e k)
    · exact iblk1_2_apply V c t k q
  · exact iblk1_3_apply V c t 0 q
  · exact iblk1_4_apply V c t p q

/-- WHAT POINT `t` WRITES BACK is block `t` of `G1` of the arrays as the region finds them. -/
theorem flushed1_eq (c : Dev nD) (t : Fin cfg1.N) :
    (Hand.dat1 (F := Ideal) V c).flushed 5 t = ((cfg1.win 5).blk t).view.read (Elt Ideal) (G1 V c) := by
  show (cfg1.win 5).cut (grid1.coords t) ((Hand.dat1 (F := Ideal) V c).after 5 t) = _
  rw [Hand.after1_5]
  refine funext fun (j : S2000x128.Idx) => ?_
  obtain ⟨p, q, rfl⟩ : ∃ (p : Fin 2000) (q : Fin 128), j = ix2 p q := ⟨j 0, j 1, eq_ix2 j⟩
  show Hand.out1_5 (F := Ideal) (Hand.iblk1 V c 0 t) (Hand.iblk1 V c 1 t) (Hand.iblk1 V c 2 t) (Hand.iblk1 V c 3 t) (Hand.iblk1 V c 4 t) (ix2 p q)
    = G1 V c (((cfg1.win 5).blk t).view.emb (ix2 p q))
  rw [emb1_5 t p q]
  exact block1_apply V c t p q

/-- Every index of the output array is in the block of the point its row falls in. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  have ht : t.val = (i 0).val / 2000 := rfl
  obtain ⟨-, -, -, -, -, -, -, -, -, -, h0, h1⟩ := idx_facts1 t
  refine ⟨t, flush1_5 t, ?_⟩
  show i ∈ ((View.whole main_v19).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; rw [h0, ht]; omega
  | ⟨1, _⟩ => show win1_5.index t (1 : Fin 2) * 128 ≤ (i 1).val ∧ (i 1).val < win1_5.index t (1 : Fin 2) * 128 + 128; rw [h1]; omega

/-- THE ARRAY after the pipeline: `G1` of the arrays as the region finds them. -/
theorem final1 (c : Dev nD) : (Hand.dat1 (F := Ideal) V c).arrAt 5 cfg1.N = G1 V c :=
  (Hand.dat1 (F := Ideal) V c).arrAt_eq_of_cover 5 (G1 V c) (fun t _ => flushed1_eq V c t) (cover1)

/-- The same at an index given by its coordinates. -/
theorem final1_apply (c : Dev nD) (n : Fin 100000) (q : Fin 128) :
    ((Hand.dat1 (F := Ideal) V c).arrAt 5 cfg1.N : S100000x128.Idx → EReal) (ix2 n q)
      = (∑ k : Fin 128, (∑ e : Fin 1024, inA V c (ix2 n e) * inB V c (ix2 e k)) * inC V c (ix2 k q)) + inR V c (ix2 0 q) + inD V c (ix2 n q) := by
  rw [final1 V c]
  rfl

end Cert.KernelIdeal.Val1

end
-- ==== Proof.HostChains.lean ====
/-
  The host operations the two programs share, each chain stated once as a function of the arrays it reads.

  Both programs compute, outside their contractions, the same chains of elementwise operations, broadcasts
  and whole-array reductions: the softmax of the edge logits (the attention weights), the entropy of the
  normalised weights, the hyperedge features from the raw aggregate, and the sensitivity of the nodes from
  their degrees and squared norms. Each chain is a function here; the reference's stages are these functions
  of the reference's contractions, and the kernel program's spelling of each chain, over its own names for the
  same shapes and contraction records, is the same function.
-/
import proofs.«162158_j50689204027485_1_alg».proof.KernelIdeal
import proofs.«162158_j50689204027485_1_alg».proof.ReferenceIdeal
import proofs.«162158_j50689204027485_1_alg».proof.Proof.Gen.KernelIdeal
import proofs.«162158_j50689204027485_1_alg».proof.Proof.Gen.ReferenceIdeal
import proofs.«162158_j50689204027485_1_alg».proof.Proof.Gen.ReferenceIdeal.Read

noncomputable section

namespace Cert.HostChains

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-! ## The chains, over the reference program's names -/

/-- The edge logits shifted by their maximum, exponentiated. -/
def expShift (x6 : (⟨S1024, .f32⟩ : BufTy).Contents (Elt F)) : (⟨S1024, .f32⟩ : BufTy).Contents (Elt F) :=
  Host.exp (subf x6 (broadcastInDim S1024 ![0] bcast_S1_S1024_0 (broadcastInDim S1 ![] bcast_S_S1 (maximumf (constant S_ .f32 0xFF800000#32 : (⟨S_, .f32⟩ : BufTy).Contents (Elt F)) (Host.reduce FloatOps.maximumf x6 (constant S_ .f32 0xFF800000#32 : (⟨S_, .f32⟩ : BufTy).Contents (Elt F)) reducesTo_S1024_S_d0 h_S_)))))

/-- The softmax of the edge logits: the shifted exponentials over their sum. -/
def softmax (x6 : (⟨S1024, .f32⟩ : BufTy).Contents (Elt F)) : (⟨S1024, .f32⟩ : BufTy).Contents (Elt F) :=
  Host.divf (expShift x6) (broadcastInDim S1024 ![0] bcast_S1_S1024_0 (broadcastInDim S1 ![] bcast_S_S1 (Host.reduceAdd (expShift x6) (constant S_ .f32 0x00000000#32 : (⟨S_, .f32⟩ : BufTy).Contents (Elt F)) reducesTo_S1024_S_d0 h_S_)))

/-- The attention weights over their sum plus a small constant. -/
def attnNorm (a : (⟨S1024, .f32⟩ : BufTy).Contents (Elt F)) : (⟨S1024, .f32⟩ : BufTy).Contents (Elt F) :=
  Host.divf a (broadcastInDim S1024 ![] bcast_S_S1024 (addf (Host.reduceAdd a (constant S_ .f32 0x00000000#32 : (⟨S_, .f32⟩ : BufTy).Contents (Elt F)) reducesTo_S1024_S_d0 h_S_) (constant S_ .f32 0x322BCC77#32 : (⟨S_, .f32⟩ : BufTy).Contents (Elt F))))

/-- The entropy of the normalised attention weights `p`: minus the sum of `p * log (p + eps)`. -/
def entropyOf (a : (⟨S1024, .f32⟩ : BufTy).Contents (Elt F)) : (⟨S_, .f32⟩ : BufTy).Contents (Elt F) :=
  Host.negf (Host.reduceAdd (mulf (attnNorm a) (Host.log (addf (attnNorm a) (broadcastInDim S1024 ![] bcast_S_S1024 (constant S_ .f32 0x322BCC77#32 : (⟨S_, .f32⟩ : BufTy).Contents (Elt F)))))) (constant S_ .f32 0x00000000#32 : (⟨S_, .f32⟩ : BufTy).Contents (Elt F)) reducesTo_S1024_S_d0 h_S_)

/-- The hyperedge features from the raw aggregate `r` and attention weights `a`: the aggregate through the
hyperedge weights, plus the bias along the channels, times the attention weight of the hyperedge. -/
def heOfAttn (r : (⟨S1024x128, .f32⟩ : BufTy).Contents (Elt F)) (x2 : (⟨S128x128, .f32⟩ : BufTy).Contents (Elt F)) (x3 : (⟨S128, .f32⟩ : BufTy).Contents (Elt F)) (a : (⟨S1024, .f32⟩ : BufTy).Contents (Elt F)) : (⟨S1024x128, .f32⟩ : BufTy).Contents (Elt F) :=
  mulf (addf (Host.dotGeneral dot_S1024x128_S128x128_S1024x128_1_0_0_1_n_n none r x2) (broadcastInDim S1024x128 ![0, 1] bcast_S1x128_S1024x128_0_1 (broadcastInDim S1x128 ![1] bcast_S128_S1x128_1 x3)))
    (broadcastInDim S1024x128 ![0, 1] bcast_S1024x1_S1024x128_0_1 (broadcastInDim S1024x1 ![0] bcast_S1024_S1024x1_0 a))

/-- A vector over the nodes divided by its maximum plus a small constant. -/
def scaled (v : (⟨S100000, .f32⟩ : BufTy).Contents (Elt F)) : (⟨S100000, .f32⟩ : BufTy).Contents (Elt F) :=
  Host.divf v (broadcastInDim S100000 ![] bcast_S_S100000 (addf (Host.reduce FloatOps.maximumf v (constant S_ .f32 0xFF800000#32 : (⟨S_, .f32⟩ : BufTy).Contents (Elt F)) reducesTo_S100000_S_d0 h_S_) (constant S_ .f32 0x322BCC77#32 : (⟨S_, .f32⟩ : BufTy).Contents (Elt F))))

/-- The sensitivity of the nodes from their degrees `d` and squared feature norms `q`: the norm times the scaled
degree, scaled. -/
def sensOf (d q : (⟨S100000, .f32⟩ : BufTy).Contents (Elt F)) : (⟨S100000, .f32⟩ : BufTy).Contents (Elt F) :=
  scaled (mulf (Host.sqrt q) (scaled d))

/-- The attention weights: the reference's softmax stage. -/
def attn (x6 : (⟨S1024, .f32⟩ : BufTy).Contents (Elt F)) : (⟨S1024, .f32⟩ : BufTy).Contents (Elt F) := val_main_v15 (F := F) x6

/-- The entropy output: the reference's last entropy stage. -/
def entropy (x6 : (⟨S1024, .f32⟩ : BufTy).Contents (Elt F)) : (⟨S_, .f32⟩ : BufTy).Contents (Elt F) := val_main_v34 (F := F) x6

/-- The hyperedge features from the raw aggregate `r`, at the attention weights of the logits `x6`. -/
def heOf (r : (⟨S1024x128, .f32⟩ : BufTy).Contents (Elt F)) (x2 : (⟨S128x128, .f32⟩ : BufTy).Contents (Elt F)) (x3 : (⟨S128, .f32⟩ : BufTy).Contents (Elt F)) (x6 : (⟨S1024, .f32⟩ : BufTy).Contents (Elt F)) : (⟨S1024x128, .f32⟩ : BufTy).Contents (Elt F) :=
  heOfAttn r x2 x3 (val_main_v15 (F := F) x6)

theorem attn_eq (x6 : (⟨S1024, .f32⟩ : BufTy).Contents (Elt F)) : attn (F := F) x6 = softmax x6 := rfl

theorem entropy_eq (x6 : (⟨S1024, .f32⟩ : BufTy).Contents (Elt F)) : entropy (F := F) x6 = entropyOf (attn x6) := rfl

theorem heOf_eq (r : (⟨S1024x128, .f32⟩ : BufTy).Contents (Elt F)) (x2 : (⟨S128x128, .f32⟩ : BufTy).Contents (Elt F)) (x3 : (⟨S128, .f32⟩ : BufTy).Contents (Elt F)) (x6 : (⟨S1024, .f32⟩ : BufTy).Contents (Elt F)) :
    heOf (F := F) r x2 x3 x6 = heOfAttn r x2 x3 (attn x6) := rfl

/-- The reference's hyperedge features are `heOf` of its first contraction. -/
theorem v18_eq (x0 : (⟨S100000x128, .f32⟩ : BufTy).Contents (Elt F)) (x1 : (⟨S100000x1024, .f32⟩ : BufTy).Contents (Elt F)) (x2 : (⟨S128x128, .f32⟩ : BufTy).Contents (Elt F)) (x3 : (⟨S128, .f32⟩ : BufTy).Contents (Elt F)) (x6 : (⟨S1024, .f32⟩ : BufTy).Contents (Elt F)) :
    val_main_v18 (F := F) x0 x1 x2 x3 x6 = heOf (val_main_v1 (F := F) x0 x1) x2 x3 x6 := rfl

/-- The reference's sensitivity is `sensOf` of its degrees and squared norms. -/
theorem v45_eq (x0 : (⟨S100000x128, .f32⟩ : BufTy).Contents (Elt F)) (x1 : (⟨S100000x1024, .f32⟩ : BufTy).Contents (Elt F)) :
    val_main_v45 (F := F) x0 x1 = sensOf (val_main_v35 (F := F) x1) (val_main_call0_v1 (F := F) x0) := rfl

/-! ## The kernel program's spelling of the same chains, over its own names -/

/-- The kernel program's spelling of the shifted exponentials. -/
def kExpShift (x6 : (⟨KernelIdeal.S1024, .f32⟩ : BufTy).Contents (Elt F)) : (⟨KernelIdeal.S1024, .f32⟩ : BufTy).Contents (Elt F) :=
  Host.exp (subf x6 (broadcastInDim KernelIdeal.S1024 ![0] KernelIdeal.Gen.bcast_S1_S1024_0 (broadcastInDim KernelIdeal.S1 ![] KernelIdeal.Gen.bcast_S_S1 (maximumf (constant KernelIdeal.S_ .f32 0xFF800000#32 : (⟨KernelIdeal.S_, .f32⟩ : BufTy).Contents (Elt F)) (Host.reduce FloatOps.maximumf x6 (constant KernelIdeal.S_ .f32 0xFF800000#32 : (⟨KernelIdeal.S_, .f32⟩ : BufTy).Contents (Elt F)) KernelIdeal.Gen.reducesTo_S1024_S_d0 KernelIdeal.Gen.h_S_)))))

/-- The kernel program's spelling of the softmax. -/
def kSoftmax (x6 : (⟨KernelIdeal.S1024, .f32⟩ : BufTy).Contents (Elt F)) : (⟨KernelIdeal.S1024, .f32⟩ : BufTy).Contents (Elt F) :=
  Host.divf (kExpShift x6) (broadcastInDim KernelIdeal.S1024 ![0] KernelIdeal.Gen.bcast_S1_S1024_0 (broadcastInDim KernelIdeal.S1 ![] KernelIdeal.Gen.bcast_S_S1 (Host.reduceAdd (kExpShift x6) (constant KernelIdeal.S_ .f32 0x00000000#32 : (⟨KernelIdeal.S_, .f32⟩ : BufTy).Contents (Elt F)) KernelIdeal.Gen.reducesTo_S1024_S_d0 KernelIdeal.Gen.h_S_)))

/-- The kernel program's spelling of the normalised weights. -/
def kAttnNorm (a : (⟨KernelIdeal.S1024, .f32⟩ : BufTy).Contents (Elt F)) : (⟨KernelIdeal.S1024, .f32⟩ : BufTy).Contents (Elt F) :=
  Host.divf a (broadcastInDim KernelIdeal.S1024 ![] KernelIdeal.Gen.bcast_S_S1024 (addf (Host.reduceAdd a (constant KernelIdeal.S_ .f32 0x00000000#32 : (⟨KernelIdeal.S_, .f32⟩ : BufTy).Contents (Elt F)) KernelIdeal.Gen.reducesTo_S1024_S_d0 KernelIdeal.Gen.h_S_) (constant KernelIdeal.S_ .f32 0x322BCC77#32 : (⟨KernelIdeal.S_, .f32⟩ : BufTy).Contents (Elt F))))

/-- The kernel program's spelling of the entropy. -/
def kEntropyOf (a : (⟨KernelIdeal.S1024, .f32⟩ : BufTy).Contents (Elt F)) : (⟨KernelIdeal.S_, .f32⟩ : BufTy).Contents (Elt F) :=
  Host.negf (Host.reduceAdd (mulf (kAttnNorm a) (Host.log (addf (kAttnNorm a) (broadcastInDim KernelIdeal.S1024 ![] KernelIdeal.Gen.bcast_S_S1024 (constant KernelIdeal.S_ .f32 0x322BCC77#32 : (⟨KernelIdeal.S_, .f32⟩ : BufTy).Contents (Elt F)))))) (constant KernelIdeal.S_ .f32 0x00000000#32 : (⟨KernelIdeal.S_, .f32⟩ : BufTy).Contents (Elt F)) KernelIdeal.Gen.reducesTo_S1024_S_d0 KernelIdeal.Gen.h_S_)

/-- The kernel program's spelling of the hyperedge features from the raw aggregate. -/
def kHeOfAttn (r : (⟨KernelIdeal.S1024x128, .f32⟩ : BufTy).Contents (Elt F)) (x2 : (⟨KernelIdeal.S128x128, .f32⟩ : BufTy).Contents (Elt F)) (x3 : (⟨KernelIdeal.S128, .f32⟩ : BufTy).Contents (Elt F)) (a : (⟨KernelIdeal.S1024, .f32⟩ : BufTy).Contents (Elt F)) : (⟨KernelIdeal.S1024x128, .f32⟩ : BufTy).Contents (Elt F) :=
  mulf (addf (Host.dotGeneral KernelIdeal.dot_S1024x128_S128x128_S1024x128_1_0_0_1_n_n none r x2) (broadcastInDim KernelIdeal.S1024x128 ![0, 1] KernelIdeal.Gen.bcast_S1x128_S1024x128_0_1 (broadcastInDim KernelIdeal.S1x128 ![1] KernelIdeal.Gen.bcast_S128_S1x128_1 x3)))
    (broadcastInDim KernelIdeal.S1024x128 ![0, 1] KernelIdeal.Gen.bcast_S1024x1_S1024x128_0_1 (broadcastInDim KernelIdeal.S1024x1 ![0] KernelIdeal.Gen.bcast_S1024_S1024x1_0 a))

/-- The kernel program's spelling of the scaling by the maximum. -/
def kScaled (v : (⟨KernelIdeal.S100000, .f32⟩ : BufTy).Contents (Elt F)) : (⟨KernelIdeal.S100000, .f32⟩ : BufTy).Contents (Elt F) :=
  Host.divf v (broadcastInDim KernelIdeal.S100000 ![] KernelIdeal.Gen.bcast_S_S100000 (addf (Host.reduce FloatOps.maximumf v (constant KernelIdeal.S_ .f32 0xFF800000#32 : (⟨KernelIdeal.S_, .f32⟩ : BufTy).Contents (Elt F)) KernelIdeal.Gen.reducesTo_S100000_S_d0 KernelIdeal.Gen.h_S_) (constant KernelIdeal.S_ .f32 0x322BCC77#32 : (⟨KernelIdeal.S_, .f32⟩ : BufTy).Contents (Elt F))))

/-- The kernel program's spelling of the sensitivity. -/
def kSensOf (d q : (⟨KernelIdeal.S100000, .f32⟩ : BufTy).Contents (Elt F)) : (⟨KernelIdeal.S100000, .f32⟩ : BufTy).Contents (Elt F) :=
  kScaled (mulf (Host.sqrt q) (kScaled d))

/-- The kernel program's attention weights. -/
def kAttn (x6 : (⟨KernelIdeal.S1024, .f32⟩ : BufTy).Contents (Elt F)) : (⟨KernelIdeal.S1024, .f32⟩ : BufTy).Contents (Elt F) := kSoftmax x6

/-- The kernel program's hyperedge features from the raw aggregate `r`. -/
def kHeOf (r : (⟨KernelIdeal.S1024x128, .f32⟩ : BufTy).Contents (Elt F)) (x2 : (⟨KernelIdeal.S128x128, .f32⟩ : BufTy).Contents (Elt F)) (x3 : (⟨KernelIdeal.S128, .f32⟩ : BufTy).Contents (Elt F)) (x6 : (⟨KernelIdeal.S1024, .f32⟩ : BufTy).Contents (Elt F)) : (⟨KernelIdeal.S1024x128, .f32⟩ : BufTy).Contents (Elt F) :=
  kHeOfAttn r x2 x3 (kAttn x6)

/-- The kernel program's entropy output. -/
def kEntropy (x6 : (⟨KernelIdeal.S1024, .f32⟩ : BufTy).Contents (Elt F)) : (⟨KernelIdeal.S_, .f32⟩ : BufTy).Contents (Elt F) := kEntropyOf (kAttn x6)

/-- The kernel program's sensitivity from its column-shaped degrees and squared norms, which it first reshapes
to vectors. -/
def kSensOfCol (d1 q1 : (⟨KernelIdeal.S100000x1, .f32⟩ : BufTy).Contents (Elt F)) : (⟨KernelIdeal.S100000, .f32⟩ : BufTy).Contents (Elt F) :=
  kSensOf (shapeCast KernelIdeal.S100000 d1 KernelIdeal.Gen.shapeCasts_S100000x1_S100000)
    (shapeCast KernelIdeal.S100000 q1 KernelIdeal.Gen.shapeCasts_S100000x1_S100000)

theorem kAttn_eq (x6 : (⟨KernelIdeal.S1024, .f32⟩ : BufTy).Contents (Elt F)) : kAttn (F := F) x6 = attn x6 := rfl

theorem kEntropyOf_eq (a : (⟨KernelIdeal.S1024, .f32⟩ : BufTy).Contents (Elt F)) : kEntropyOf (F := F) a = entropyOf a := rfl

theorem kEntropy_eq (x6 : (⟨KernelIdeal.S1024, .f32⟩ : BufTy).Contents (Elt F)) : kEntropy (F := F) x6 = entropy x6 := rfl

theorem kHeOfAttn_eq (r : (⟨KernelIdeal.S1024x128, .f32⟩ : BufTy).Contents (Elt F)) (x2 : (⟨KernelIdeal.S128x128, .f32⟩ : BufTy).Contents (Elt F)) (x3 : (⟨KernelIdeal.S128, .f32⟩ : BufTy).Contents (Elt F)) (a : (⟨KernelIdeal.S1024, .f32⟩ : BufTy).Contents (Elt F)) :
    kHeOfAttn (F := F) r x2 x3 a = heOfAttn r x2 x3 a := rfl

theorem kHeOf_eq (r : (⟨KernelIdeal.S1024x128, .f32⟩ : BufTy).Contents (Elt F)) (x2 : (⟨KernelIdeal.S128x128, .f32⟩ : BufTy).Contents (Elt F)) (x3 : (⟨KernelIdeal.S128, .f32⟩ : BufTy).Contents (Elt F)) (x6 : (⟨KernelIdeal.S1024, .f32⟩ : BufTy).Contents (Elt F)) :
    kHeOf (F := F) r x2 x3 x6 = heOf r x2 x3 x6 := rfl

theorem kSensOf_eq (d q : (⟨KernelIdeal.S100000, .f32⟩ : BufTy).Contents (Elt F)) : kSensOf (F := F) d q = sensOf d q := rfl

theorem kSensOfCol_eq (d1 q1 : (⟨KernelIdeal.S100000x1, .f32⟩ : BufTy).Contents (Elt F)) :
    kSensOfCol (F := F) d1 q1
      = sensOf (shapeCast S100000 d1 KernelIdeal.Gen.shapeCasts_S100000x1_S100000)
          (shapeCast S100000 q1 KernelIdeal.Gen.shapeCasts_S100000x1_S100000) := rfl

end Cert.HostChains
-- ==== Proof.Stages.lean ====
import proofs.«162158_j50689204027485_1_alg».proof.Proof.Run
import proofs.«162158_j50689204027485_1_alg».proof.Proof.HostChains
import Idealize.ShloMosaic.Lib.StableHlo.Run

/-! # What the two stretches of host operations leave, as the shared chains of their inputs

Between the two kernel regions the program computes on the host the softmax of the edge logits (the attention
weights), the hyperedge features from the first region's raw aggregate, and the bias as a row; after the second
region, the entropy of the normalised attention weights and the sensitivity of the nodes from the first region's
column-shaped degrees and squared norms. Each result buffer, read off the stretch's fold, is the corresponding
chain applied to the buffers the stretch reads, as the stretch finds them. -/

noncomputable section

namespace Cert.KernelIdeal.Bridge

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]
variable (m : (ℓ : Loc nD τ sig) → Buf (Elt F) ℓ)

/-- The hyperedge features the second region reads: the chain of the first region's raw aggregate, the hyperedge
    weights and bias, and the edge logits. -/
theorem W2_v17 (c : Dev nD) : W2 m c (Proc.devRef .tc main_v17)
    = Cert.HostChains.kHeOf (W1 m c (Proc.devRef .tc main_v0_0)) (W1 m c (Proc.devRef .tc main_arg2)) (W1 m c (Proc.devRef .tc main_arg3)) (W1 m c (Proc.devRef .tc main_arg6)) := by
  show StableHlo.after hostOps1 (W1 m c) (Proc.devRef .tc main_v17) = _
  after_results_simp <;> rfl

/-- The attention weights: the softmax of the edge logits. -/
theorem W2_v14 (c : Dev nD) : W2 m c (Proc.devRef .tc main_v14) = Cert.HostChains.kAttn (W1 m c (Proc.devRef .tc main_arg6)) := by
  show StableHlo.after hostOps1 (W1 m c) (Proc.devRef .tc main_v14) = _
  after_results
  rfl

/-- The output bias recast as a row. -/
theorem W2_v18 (c : Dev nD) : W2 m c (Proc.devRef .tc main_v18) = shapeCast S1x128 (W1 m c (Proc.devRef .tc main_arg5)) shapeCasts_S128_S1x128 := by
  show StableHlo.after hostOps1 (W1 m c) (Proc.devRef .tc main_v18) = _
  after_results
  rfl

/-- The entropy of the normalised attention weights. -/
theorem W4_v29 (c : Dev nD) : W4 m c (Proc.devRef .tc main_v29) = Cert.HostChains.kEntropyOf (W3 m c (Proc.devRef .tc main_v14)) := by
  show StableHlo.after hostOps2 (W3 m c) (Proc.devRef .tc main_v29) = _
  after_results
  rfl

/-- The sensitivity of the nodes from the column-shaped degrees and squared norms. -/
theorem W4_v41 (c : Dev nD) : W4 m c (Proc.devRef .tc main_v41)
    = Cert.HostChains.kSensOfCol (W3 m c (Proc.devRef .tc main_v0_1)) (W3 m c (Proc.devRef .tc main_v0_2)) := by
  show StableHlo.after hostOps2 (W3 m c) (Proc.devRef .tc main_v41) = _
  after_results_simp <;> rfl

end Cert.KernelIdeal.Bridge

end
-- ==== Proof.Casts.lean ====
import proofs.«162158_j50689204027485_1_alg».proof.Proof.Gen.KernelIdeal
import Idealize.ShloMosaic.Lib.ValueIdx
import Idealize.ShloMosaic.Lib.Pipeline.Value
import Idealize.ShloMosaic.Lib.ValueLayout

/-! # Two reshapes read at an index

A column `[100000, 1]` recast as a vector `[100000]` reads at `n` the column at `(n, 0)`; a vector `[128]` recast
as a row `[1, 128]` reads at `(0, q)` the vector at `q`: in both the row-major position of the index is unchanged. -/

noncomputable section

namespace Cert.KernelIdeal.Casts

open Cert.KernelIdeal Cert.KernelIdeal.Gen
open Idealize.ShloMosaic Idealize.ShloMosaic.ValueIdx

variable {F : FTy → Type} [FloatOps F]

/-- The column recast as a vector. -/
theorem cast_col_apply (x : (⟨S100000x1, .f32⟩ : BufTy).Contents (Elt F)) (h : S100000x1.ShapeCasts S100000) (n : Fin 100000) :
    shapeCast S100000 x h (ix1 n) = x (ix2 n (0 : Fin 1)) :=
  shapeCast_apply x h _ _ (by
    rw [Shape.rowMajor_val_two, Shape.rowMajor_val_one]
    show n.val * 1 + 0 = n.val
    omega)

/-- The vector recast as a row. -/
theorem cast_row_apply (x : (⟨S128, .f32⟩ : BufTy).Contents (Elt F)) (h : S128.ShapeCasts S1x128) (q : Fin 128) :
    shapeCast S1x128 x h (ix2 (0 : Fin 1) q) = x (ix1 q) :=
  shapeCast_apply x h _ _ (by
    rw [Shape.rowMajor_val_two, Shape.rowMajor_val_one]
    show q.val = 0 * 128 + q.val
    omega)

end Cert.KernelIdeal.Casts

end
-- ==== Proof.RefRead.lean ====
/-
  The reference program read at an index, at the ideal instance (a float is an extended real).

  * the first contraction (incidence transposed times the node features) is the sum over the nodes;
  * the degree of a node is zero plus the sum of its incidence row;
  * the squared norm of a node's feature row is zero plus the sum of the squares of the row;
  * the node output is the hyperedge features gathered along the incidence row, contracted with the
    output weights, plus the output bias, plus the node's own feature (the residual).
-/
import proofs.«162158_j50689204027485_1_alg».proof.Proof.Gen.ReferenceIdeal.Read
import Idealize.ShloMosaic.Lib.ValueIdx
import Idealize.ShloMosaic.Lib.Pipeline.Value
import Idealize.ShloMosaic.PureOps.Ideal.Laws

noncomputable section

namespace Cert.RefRead

open Cert.ReferenceIdeal Cert.ReferenceIdeal.Read Idealize.ShloMosaic Idealize.ShloMosaic.ValueIdx

/-- The first contraction at hyperedge `e` and channel `c`: the sum over the nodes of the incidence entry
times the node feature. -/
theorem heRaw_apply (x0 : (⟨S100000x128, .f32⟩ : BufTy).Contents (Elt Ideal)) (x1 : (⟨S100000x1024, .f32⟩ : BufTy).Contents (Elt Ideal))
    (e : Fin 1024) (c : Fin 128) :
    val_main_v1 (F := Ideal) x0 x1 (ix2 e c) = ∑ n : Fin 100000, x1 (ix2 n e) * x0 (ix2 n c) := by
  have e1 : ∀ k : Fin 100000, idx_main_v0 (lidx_main_v1 (ix2 e c) k) = ix2 k e := fun k =>
    funext fun a => Fin.ext (by match a with | ⟨0, _⟩ => rfl | ⟨1, _⟩ => rfl)
  have e2 : ∀ k : Fin 100000, ridx_main_v1 (ix2 e c) k = ix2 k c := fun k =>
    funext fun a => Fin.ext (by match a with | ⟨0, _⟩ => rfl | ⟨1, _⟩ => rfl)
  rw [val_main_v1_apply]
  refine Finset.sum_congr rfl fun k _ => ?_
  rw [val_main_v0_apply, e1, e2]

/-- The degree of node `n`: zero plus the sum of its incidence row. -/
theorem deg_apply (x1 : (⟨S100000x1024, .f32⟩ : BufTy).Contents (Elt Ideal)) (n : Fin 100000) :
    val_main_v35 (F := Ideal) x1 (ix1 n) = 0 + ∑ e : Fin 1024, x1 (ix2 n e) := by
  have e1 : ∀ k : Fin 1024, idx_main_v35 (ix1 n) k = ix2 n k := fun k =>
    funext fun a => Fin.ext (by match a with | ⟨0, _⟩ => rfl | ⟨1, _⟩ => rfl)
  rw [val_main_v35_apply, val_main_cst_6_apply, Ideal.ofBits_def, Ideal.ofBits_zero_f32]
  simp only [e1]

/-- The squared norm of node `n`'s feature row: zero plus the sum of the squares of the row. -/
theorem normsq_apply (x0 : (⟨S100000x128, .f32⟩ : BufTy).Contents (Elt Ideal)) (n : Fin 100000) :
    val_main_call0_v1 (F := Ideal) x0 (ix1 n) = 0 + ∑ k : Fin 128, x0 (ix2 n k) * x0 (ix2 n k) := by
  have e1 : ∀ k : Fin 128, idx_main_call0_v1 (ix1 n) k = ix2 n k := fun k =>
    funext fun a => Fin.ext (by match a with | ⟨0, _⟩ => rfl | ⟨1, _⟩ => rfl)
  rw [val_main_call0_v1_apply, val_main_call0_cst_apply, Ideal.ofBits_def, Ideal.ofBits_zero_f32]
  simp only [val_main_call0_v0_apply, Ideal.mulf_def, e1]

/-- The node output at node `n` and channel `c`: the weighted hyperedge features gathered along the node's
incidence row, contracted with the output weights, plus the output bias, plus the node's own feature. -/
theorem nodeOut_apply (x0 : (⟨S100000x128, .f32⟩ : BufTy).Contents (Elt Ideal)) (x1 : (⟨S100000x1024, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S1024, .f32⟩ : BufTy).Contents (Elt Ideal)) (n : Fin 100000) (c : Fin 128) :
    val_main_v24 (F := Ideal) x0 x1 x2 x3 x4 x5 x6 (ix2 n c)
      = (∑ k : Fin 128, (∑ e : Fin 1024, x1 (ix2 n e) * val_main_v18 (F := Ideal) x0 x1 x2 x3 x6 (ix2 e k)) * x4 (ix2 k c))
        + x5 (ix1 c) + x0 (ix2 n c) := by
  have e1 : ∀ k : Fin 128, lidx_main_v20 (ix2 n c) k = ix2 n k := fun k =>
    funext fun a => Fin.ext (by match a with | ⟨0, _⟩ => rfl | ⟨1, _⟩ => rfl)
  have e2 : ∀ k : Fin 128, ridx_main_v20 (ix2 n c) k = ix2 k c := fun k =>
    funext fun a => Fin.ext (by match a with | ⟨0, _⟩ => rfl | ⟨1, _⟩ => rfl)
  have e3 : ∀ (k : Fin 128) (e : Fin 1024), lidx_main_v19 (ix2 n k) e = ix2 n e := fun k e =>
    funext fun a => Fin.ext (by match a with | ⟨0, _⟩ => rfl | ⟨1, _⟩ => rfl)
  have e4 : ∀ (k : Fin 128) (e : Fin 1024), ridx_main_v19 (ix2 n k) e = ix2 e k := fun k e =>
    funext fun a => Fin.ext (by match a with | ⟨0, _⟩ => rfl | ⟨1, _⟩ => rfl)
  have e5 : idx_main_v21 (idx_main_v22 (ix2 n c)) = ix1 c :=
    funext fun a => Fin.ext (by match a with | ⟨0, _⟩ => rfl)
  rw [val_main_v24_apply, val_main_v23_apply, val_main_v20_apply, val_main_v22_apply, val_main_v21_apply]
  simp only [e1, e2, val_main_v19_apply, e3, e4, e5, Ideal.addf_def]

end Cert.RefRead
-- ==== Proof.Match.lean ====
/-
  The kernel program's array functions are the reference's stages.

  The first region's accumulated product, read as one function of the incidence matrix and the node features, is the
  reference's first contraction of the same two arrays; its two column outputs, recast as vectors, are the reference's
  degrees and squared norms; and the second region's output, as a function of its five input arrays, is the reference's
  node output once those arrays are the reference's incidence matrix, hyperedge features, output weights, bias and
  node features.
-/
import proofs.«162158_j50689204027485_1_alg».proof.Proof.Fin0
import proofs.«162158_j50689204027485_1_alg».proof.Proof.RefRead
import proofs.«162158_j50689204027485_1_alg».proof.Proof.Fin1
import proofs.«162158_j50689204027485_1_alg».proof.Proof.Val0B
import Idealize.ShloMosaic.Lib.ValueIdx
import Idealize.ShloMosaic.Lib.Pipeline.Value

noncomputable section

namespace Cert.KernelIdeal.Bridge

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- A column of `100000` rows and one entry per row recast as a vector reads, at `n`, the column's entry in row `n`:
the two positions are the same in row-major order, `n · 1 + 0 = n`. -/
theorem col_cast_apply {α : Type} (x : S100000x1.Idx → α) (h : S100000x1.ShapeCasts S100000) (n : Fin 100000) :
    shapeCast S100000 x h (ix1 n) = x (ix2 n (0 : Fin 1)) :=
  shapeCast_apply x h _ _ (by
    rw [Shape.rowMajor_val_two, Shape.rowMajor_val_one]
    show n.val * 1 + 0 = n.val
    omega)

/-- The first region's accumulated product is the reference's first contraction of the node features and the
incidence matrix. -/
theorem heRaw_eq (c : Dev nD) :
    Val0.heRaw V c = ReferenceIdeal.Read.val_main_v1 (F := Ideal) (Val0.arrFeat V c) (Val0.arrInc V c) := by
  funext i
  obtain ⟨e, k, rfl⟩ : ∃ (e : Fin 1024) (k : Fin 128), i = ix2 e k := ⟨i 0, i 1, eq_ix2 i⟩
  exact (RefRead.heRaw_apply (Val0.arrFeat V c) (Val0.arrInc V c) e k).symm

/-- The first region's second output, recast as a vector, is the reference's degrees of the incidence matrix. -/
theorem deg_eq (c : Dev nD) (h : S100000x1.ShapeCasts S100000) :
    shapeCast S100000 ((Hand.dat0 (F := Ideal) V c).arrAt 3 cfg0.N) h
      = ReferenceIdeal.Read.val_main_v35 (F := Ideal) (Val0.arrInc V c) := by
  funext i
  obtain ⟨n, rfl⟩ : ∃ n : Fin 100000, i = ix1 n := ⟨i 0, eq_ix1 i⟩
  refine (col_cast_apply _ h n).trans ?_
  exact (Val0.final0_3_apply V c n).trans (RefRead.deg_apply (Val0.arrInc V c) n).symm

/-- The first region's third output, recast as a vector, is the reference's squared norms of the node features. -/
theorem normsq_eq (c : Dev nD) (h : S100000x1.ShapeCasts S100000) :
    shapeCast S100000 ((Hand.dat0 (F := Ideal) V c).arrAt 4 cfg0.N) h
      = ReferenceIdeal.Read.val_main_call0_v1 (F := Ideal) (Val0.arrFeat V c) := by
  funext i
  obtain ⟨n, rfl⟩ : ∃ n : Fin 100000, i = ix1 n := ⟨i 0, eq_ix1 i⟩
  refine (col_cast_apply _ h n).trans ?_
  exact (Val0.final0_4_apply V c n).trans (RefRead.normsq_apply (Val0.arrFeat V c) n).symm

/-- The second region's output array is the reference's node output, once the region's five input arrays are the
reference's incidence matrix, hyperedge features, output weights, output bias (as a row) and node features. -/
theorem nodeOut_eq (c : Dev nD)
    (x0 : (⟨ReferenceIdeal.S100000x128, .f32⟩ : BufTy).Contents (Elt Ideal)) (x1 : (⟨ReferenceIdeal.S100000x1024, .f32⟩ : BufTy).Contents (Elt Ideal))
    (x2 : (⟨ReferenceIdeal.S128x128, .f32⟩ : BufTy).Contents (Elt Ideal)) (x3 : (⟨ReferenceIdeal.S128, .f32⟩ : BufTy).Contents (Elt Ideal))
    (x4 : (⟨ReferenceIdeal.S128x128, .f32⟩ : BufTy).Contents (Elt Ideal)) (x5 : (⟨ReferenceIdeal.S128, .f32⟩ : BufTy).Contents (Elt Ideal))
    (x6 : (⟨ReferenceIdeal.S1024, .f32⟩ : BufTy).Contents (Elt Ideal))
    (hA : Val1.inA V c = x1)
    (hB : Val1.inB V c = ReferenceIdeal.Read.val_main_v18 (F := Ideal) x0 x1 x2 x3 x6)
    (hC : Val1.inC V c = x4)
    (hR : ∀ q : Fin 128, Val1.inR V c (ix2 (0 : Fin 1) q) = x5 (ix1 q))
    (hD : Val1.inD V c = x0) :
    Val1.G1 V c = ReferenceIdeal.Read.val_main_v24 (F := Ideal) x0 x1 x2 x3 x4 x5 x6 := by
  funext i
  obtain ⟨n, q, rfl⟩ : ∃ (n : Fin 100000) (q : Fin 128), i = ix2 n q := ⟨i 0, i 1, eq_ix2 i⟩
  refine Eq.trans ?_ (RefRead.nodeOut_apply x0 x1 x2 x3 x4 x5 x6 n q).symm
  show Val1.G1pt V c n q = _
  unfold Val1.G1pt
  rw [hA, hB, hC, hR, hD] <;> rfl

end Cert.KernelIdeal.Bridge
-- ==== Proof.Bridge.lean ====
/- The kernel program's five results at the ideal instance are the reference's stages of the same arguments.
   The first region leaves the incidence-transposed-times-features product (a sum over all rows, taken block by block),
   the row sums of the incidence matrix and the row sums of the squared features; the host operations between and after
   the regions are the reference's own chains (the attention softmax, the hyperedge transform, the entropy, the
   normalised sensitivity); the second region leaves, row block by row block, the reference's two products plus bias plus
   the residual. -/
import proofs.«162158_j50689204027485_1_alg».proof.Proof.Run
import proofs.«162158_j50689204027485_1_alg».proof.Proof.Val0B
import proofs.«162158_j50689204027485_1_alg».proof.Proof.Fin0
import proofs.«162158_j50689204027485_1_alg».proof.Proof.Fin1
import proofs.«162158_j50689204027485_1_alg».proof.Proof.Stages
import proofs.«162158_j50689204027485_1_alg».proof.Proof.Casts
import proofs.«162158_j50689204027485_1_alg».proof.Proof.Match
import proofs.«162158_j50689204027485_1_alg».proof.Proof.HostChains
import proofs.«162158_j50689204027485_1_alg».proof.Proof.RefRead

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! The argument arrays as each boundary finds them: as launched. -/
theorem W1_arg2 : W1 m c (Proc.devRef .tc main_arg2) = (m ((c.tc : Thread nD τ).loc main_arg2)) := W1_of_ne m c main_arg2 (by decide)
theorem W1_arg3 : W1 m c (Proc.devRef .tc main_arg3) = (m ((c.tc : Thread nD τ).loc main_arg3)) := W1_of_ne m c main_arg3 (by decide)
theorem W1_arg4 : W1 m c (Proc.devRef .tc main_arg4) = (m ((c.tc : Thread nD τ).loc main_arg4)) := W1_of_ne m c main_arg4 (by decide)
theorem W1_arg5 : W1 m c (Proc.devRef .tc main_arg5) = (m ((c.tc : Thread nD τ).loc main_arg5)) := W1_of_ne m c main_arg5 (by decide)
theorem W1_arg6 : W1 m c (Proc.devRef .tc main_arg6) = (m ((c.tc : Thread nD τ).loc main_arg6)) := W1_of_ne m c main_arg6 (by decide)
theorem W1_arg0 : W1 m c (Proc.devRef .tc main_arg0) = (m ((c.tc : Thread nD τ).loc main_arg0)) :=
  (W1_arr m c 0).trans (((dat0 (VR0 m) c).arrAt_in 0 rfl _).trans (A_eq0 (VR0 m) c 0))
theorem W1_arg1 : W1 m c (Proc.devRef .tc main_arg1) = (m ((c.tc : Thread nD τ).loc main_arg1)) :=
  (W1_arr m c 1).trans (((dat0 (VR0 m) c).arrAt_in 1 rfl _).trans (A_eq0 (VR0 m) c 1))
theorem W2_arg0 : W2 m c (Proc.devRef .tc main_arg0) = (m ((c.tc : Thread nD τ).loc main_arg0)) := (W2_of m c main_arg0 (by decide)).trans (W1_arg0 m c)
theorem W2_arg1 : W2 m c (Proc.devRef .tc main_arg1) = (m ((c.tc : Thread nD τ).loc main_arg1)) := (W2_of m c main_arg1 (by decide)).trans (W1_arg1 m c)
theorem W2_arg4 : W2 m c (Proc.devRef .tc main_arg4) = (m ((c.tc : Thread nD τ).loc main_arg4)) := (W2_of m c main_arg4 (by decide)).trans (W1_arg4 m c)

/-- The first region's first output is the reference's first product. -/
theorem W1_v0_0 : W1 m c (Proc.devRef .tc main_v0_0) = Cert.ReferenceIdeal.Read.val_main_v1 (F := Ideal) (m ((c.tc : Thread nD τ).loc main_arg0)) (m ((c.tc : Thread nD τ).loc main_arg1)) :=
  (W1_arr m c 2).trans ((Val0.final0_2 (VR0 m) c).trans (heRaw_eq (VR0 m) c))

/-- The scaled hyperedge features the second region reads are the reference's. -/
theorem he_eq : W2 m c (Proc.devRef .tc main_v17) = Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) := by
  rw [W2_v17, W1_v0_0, W1_arg2, W1_arg3, W1_arg6]
  exact (Cert.HostChains.kHeOf_eq _ _ _ _).trans (Cert.HostChains.v18_eq _ _ _ _ _).symm

/-- The attention weights are the reference's softmax. -/
theorem attn_k : W2 m c (Proc.devRef .tc main_v14) = Cert.ReferenceIdeal.Read.val_main_v15 (F := Ideal) (m ((c.tc : Thread nD τ).loc main_arg6)) := by
  rw [W2_v14, W1_arg6]
  exact Cert.HostChains.kAttn_eq _

theorem W3_v14 : W3 m c (Proc.devRef .tc main_v14) = W2 m c (Proc.devRef .tc main_v14) := W3_of_ne m c main_v14 (by decide)
theorem W3_v0_1 : W3 m c (Proc.devRef .tc main_v0_1) = (dat0 (VR0 m) c).arrAt 3 cfg0.N :=
  (W3_of_ne m c main_v0_1 (by decide)).trans ((W2_of m c main_v0_1 (by decide)).trans (W1_arr m c 3))
theorem W3_v0_2 : W3 m c (Proc.devRef .tc main_v0_2) = (dat0 (VR0 m) c).arrAt 4 cfg0.N :=
  (W3_of_ne m c main_v0_2 (by decide)).trans ((W2_of m c main_v0_2 (by decide)).trans (W1_arr m c 4))

/-! The five results. -/
theorem res_attn : W4 m c (Proc.devRef .tc main_v14) = Cert.ReferenceIdeal.Read.val_main_v15 (F := Ideal) (m ((c.tc : Thread nD τ).loc main_arg6)) :=
  (W4_of m c main_v14 (by decide)).trans ((W3_v14 m c).trans (attn_k m c))

theorem res_entropy : W4 m c (Proc.devRef .tc main_v29) = Cert.ReferenceIdeal.Read.val_main_v34 (F := Ideal) (m ((c.tc : Thread nD τ).loc main_arg6)) := by
  rw [W4_v29, W3_v14, attn_k]
  exact (Cert.HostChains.kEntropyOf_eq _).trans (Cert.HostChains.entropy_eq (m ((c.tc : Thread nD τ).loc main_arg6))).symm

theorem res_he : W4 m c (Proc.devRef .tc main_v17) = Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) :=
  (W4_of m c main_v17 (by decide)).trans ((W3_arr m c 1).trans (((dat1 (VR2 m) c).arrAt_in 1 rfl _).trans ((A_eq1 (VR2 m) c 1).trans (he_eq m c))))

theorem res_sens : W4 m c (Proc.devRef .tc main_v41) = Cert.ReferenceIdeal.Read.val_main_v45 (F := Ideal) (m ((c.tc : Thread nD τ).loc main_arg0)) (m ((c.tc : Thread nD τ).loc main_arg1)) := by
  rw [W4_v41, W3_v0_1, W3_v0_2, Cert.HostChains.kSensOfCol_eq, deg_eq (VR0 m) c _, normsq_eq (VR0 m) c _]
  exact (Cert.HostChains.v45_eq _ _).symm

theorem res_out : W4 m c (Proc.devRef .tc main_v19) = Cert.ReferenceIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W4_of m c main_v19 (by decide)).trans ((W3_arr m c 5).trans ((Val1.final1 (VR2 m) c).trans
    (nodeOut_eq (VR2 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      (W2_arg1 m c) (he_eq m c) (W2_arg4 m c)
      (fun q => by
        show (W2 m c (Proc.devRef .tc main_v18) : S1x128.Idx → EReal) (ix2 (0 : Fin 1) q) = _
        rw [W2_v18, Casts.cast_row_apply, W1_arg5])
      (W2_arg0 m c))))

/-- THE KERNEL PROGRAM'S RUN, READ: every result at the reference's stage of the launch arguments, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v19) = Cert.ReferenceIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v17) = Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v14) = Cert.ReferenceIdeal.Read.val_main_v15 (F := Ideal) (m ((c.tc : Thread nD τ).loc main_arg6))
      ∧ r.2.mem ((c.tc : Thread nD τ).loc main_v41) = Cert.ReferenceIdeal.Read.val_main_v45 (F := Ideal) (m ((c.tc : Thread nD τ).loc main_arg0)) (m ((c.tc : Thread nD τ).loc main_arg1))
      ∧ r.2.mem ((c.tc : Thread nD τ).loc main_v29) = Cert.ReferenceIdeal.Read.val_main_v34 (F := Ideal) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_v19 (by decide))).trans (res_out m c),
    (h c _ (mem_uc main_v17 (by decide))).trans (res_he m c),
    (h c _ (mem_uc main_v14 (by decide))).trans (res_attn m c),
    (h c _ (mem_uc main_v41 (by decide))).trans (res_sens m c),
    (h c _ (mem_uc main_v29 (by decide))).trans (res_entropy m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Bridge

end
-- ==== Proof.RefImports.lean ====
/- The reference program's run and its stages read at an index (generated modules), gathered under one import. -/
import proofs.«162158_j50689204027485_1_alg».proof.Proof.Gen.ReferenceIdeal.Run
import proofs.«162158_j50689204027485_1_alg».proof.Proof.Gen.ReferenceIdeal.Read
-- ==== Proof.lean ====
/- The certificate's five claims. Both programs are read at the extended reals. The kernel program runs in two
   pipelined regions with host operations between and after them; its run is assembled segment by segment with the
   contents of every buffer named at each boundary, which gives the two frame claims (word level and ideal level) and,
   at the ideal level, each result as the reference's own stage of the launch arguments: the first region's
   accumulated product is the reference's transposed-incidence product (one sum over all rows taken in fifty blocks),
   its two row-sum outputs are the reference's reductions, the host chains are shared, and the second region's blocks
   are rows of the reference's two products plus bias plus residual. The ideal pass rewrote nothing, so the
   idealization claim is trivial. -/
import proofs.«162158_j50689204027485_1_alg».proof.Defs
import proofs.«162158_j50689204027485_1_alg».proof.Proof.Gen.Kernel
import proofs.«162158_j50689204027485_1_alg».proof.Proof.Gen.KernelIdeal
import proofs.«162158_j50689204027485_1_alg».proof.Proof.Gen.ReferenceIdeal
import proofs.«162158_j50689204027485_1_alg».proof.Proof.Gen.Pre_finite_inputs
import proofs.«162158_j50689204027485_1_alg».proof.Proof.KRun
import proofs.«162158_j50689204027485_1_alg».proof.Proof.Bridge
import proofs.«162158_j50689204027485_1_alg».proof.Proof.RefImports
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_k : Cert.frame_Kernel := fun m ρ _ => Cert.Kernel.Hand.frame m ρ
/-- The same at the ideal instance. -/
theorem frame_ki : Cert.frame_KernelIdeal := fun m ρ _ => Cert.KernelIdeal.Hand.frame m ρ
/-- The reference terminates, faults nowhere and leaves its arguments unchanged: its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote no operation. -/
theorem preserves : Cert.preserves_Kernel_KernelIdeal := trivial

/-- From memories agreeing on the arguments both programs end with equal results: each is the reference's stage of the
    arguments. -/
theorem algebraic : Cert.algebraic_KernelIdeal_ReferenceIdeal := by
  intro m ρ m' ρ' _ hagree
  refine ⟨fun c => Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)),
    fun c => Cert.ReferenceIdeal.Read.val_main_v15 (F := Ideal) (m ((c.tc : Thread Cert.KernelIdeal.nD Cert.KernelIdeal.τ).loc Cert.KernelIdeal.main_arg6)),
    fun c => Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v34 (F := Ideal) (m ((c.tc : Thread Cert.KernelIdeal.nD Cert.KernelIdeal.τ).loc Cert.KernelIdeal.main_arg6)),
    Cert.KernelIdeal.Bridge.kernel_run m ρ, ?_⟩
  refine (θ_run Cert.ReferenceIdeal.defs _ _).mono (fun _ h c => ?_) (Cert.ReferenceIdeal.Value.run (F := Ideal) m' ρ')
  obtain ⟨h24, h18, h15, h45, h34, hargs⟩ := h c
  obtain ⟨e0, e1, e2, e3, e4, e5, e6⟩ := hagree c
  refine ⟨h24.trans ?_, h18.trans ?_, h15.trans ?_, h45.trans ?_, h34.trans ?_, hargs⟩
  · rw [e0, e1, e2, e3, e4, e5, e6]; exact Cert.ReferenceIdeal.Read.val_main_v24_eq _ _ _ _ _ _ _
  · rw [e0, e1, e2, e3, e6]; exact Cert.ReferenceIdeal.Read.val_main_v18_eq _ _ _ _ _
  · rw [e6]; exact Cert.ReferenceIdeal.Read.val_main_v15_eq _
  · rw [e0, e1]; exact Cert.ReferenceIdeal.Read.val_main_v45_eq _ _
  · rw [e6]; exact Cert.ReferenceIdeal.Read.val_main_v34_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
